-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S3x512x128 : Shape := ⟨3, ![3, 512, 128]⟩
abbrev S50257x256 : Shape := ⟨2, ![50257, 256]⟩
abbrev S_ : Shape := ⟨0, ![]⟩

class Facts : Prop where
  bcast_S_S50257x256 : S_.BroadcastsInDim S50257x256 (![] : Fin 0 → Fin S50257x256.rank)
  reducesTo_S50257x256_S_d0_1 : S50257x256.ReducesTo [0, 1] S_
  h_S_ : 0 < S_.numel
  bcast_S_S3x512x128 : S_.BroadcastsInDim S3x512x128 (![] : Fin 0 → Fin S3x512x128.rank)
  reducesTo_S3x512x128_S_d0_1_2 : S3x512x128.ReducesTo [0, 1, 2] S_

variable [Facts]

def fn {F : FTy → Type} [FloatOps F] (main_arg0 : IVec S3x512x128 32) (main_arg1 : FVec F S50257x256 .f32) : IVec S_ 1 :=
  let main_v0 : FVec F S50257x256 .f32 := Host.absf main_arg1
  let main_cst : FVec F S_ .f32 := constant S_ .f32 0x7F800000#32
  let main_v1 : FVec F S50257x256 .f32 := broadcastInDim S50257x256 ![] bcast_S_S50257x256 main_cst
  let main_v2 : IVec S50257x256 1 := cmpf .olt main_v0 main_v1
  let main_c : IVec S_ 1 := constantI S_ 1 1#1
  let main_v3 : IVec S_ 1 := (fun x v => Host.reduce IntOp.andi x v reducesTo_S50257x256_S_d0_1 h_S_) main_v2 main_c
  let main_c_0 : IVec S_ 32 := constantI S_ 32 0#32
  let main_v4 : IVec S3x512x128 32 := broadcastInDim S3x512x128 ![] bcast_S_S3x512x128 main_c_0
  let main_v5 : IVec S3x512x128 1 := cmpi .sge main_arg0 main_v4
  let main_c_1 : IVec S_ 1 := constantI S_ 1 1#1
  let main_v6 : IVec S_ 1 := (fun x v => Host.reduce IntOp.andi x v reducesTo_S3x512x128_S_d0_1_2 h_S_) main_v5 main_c_1
  let main_v7 : IVec S_ 1 := andi main_v3 main_v6
  let main_c_2 : IVec S_ 32 := constantI S_ 32 50257#32
  let main_v8 : IVec S3x512x128 32 := broadcastInDim S3x512x128 ![] bcast_S_S3x512x128 main_c_2
  let main_v9 : IVec S3x512x128 1 := cmpi .slt main_arg0 main_v8
  let main_c_3 : IVec S_ 1 := constantI S_ 1 1#1
  let main_v10 : IVec S_ 1 := (fun x v => Host.reduce IntOp.andi x v reducesTo_S3x512x128_S_d0_1_2 h_S_) main_v9 main_c_3
  let main_v11 : IVec S_ 1 := andi main_v7 main_v10
  main_v11
-- ==== Kernel.lean ====
abbrev S3x512x128 : Shape := ⟨3, ![3, 512, 128]⟩
abbrev S50257x256 : Shape := ⟨2, ![50257, 256]⟩
abbrev S3x65536 : Shape := ⟨2, ![3, 65536]⟩
abbrev S1x65536 : Shape := ⟨2, ![1, 65536]⟩
abbrev S65536 : Shape := ⟨1, ![65536]⟩
abbrev S50257x1x256 : Shape := ⟨3, ![50257, 1, 256]⟩
abbrev S65536x1x256 : Shape := ⟨3, ![65536, 1, 256]⟩
abbrev S1x1x256 : Shape := ⟨3, ![1, 1, 256]⟩
abbrev S1 : Shape := ⟨1, ![1]⟩
abbrev S65536x256 : Shape := ⟨2, ![65536, 256]⟩
abbrev S512x128x256 : Shape := ⟨3, ![512, 128, 256]⟩

abbrev nBuf : Space → Nat
  | .hbm => 10
  | .vmem => 8
  | .smem => 3
  | _ => 0

abbrev bufTy : (tb : Table) → Fin (tcTables nBuf tb) → BufTy
  | .hbm, ⟨0, _⟩ => ⟨S3x512x128, .i32⟩
  | .hbm, ⟨1, _⟩ => ⟨S50257x256, .f32⟩
  | .hbm, ⟨2, _⟩ => ⟨S3x65536, .i32⟩
  | .hbm, ⟨3, _⟩ => ⟨S1x65536, .i32⟩
  | .hbm, ⟨4, _⟩ => ⟨S1x65536, .i32⟩
  | .hbm, ⟨5, _⟩ => ⟨S1x65536, .i32⟩
  | .hbm, ⟨6, _⟩ => ⟨S50257x1x256, .f32⟩
  | .hbm, ⟨7, _⟩ => ⟨S65536x1x256, .f32⟩
  | .hbm, ⟨8, _⟩ => ⟨S65536x256, .f32⟩
  | .hbm, ⟨9, _⟩ => ⟨S512x128x256, .f32⟩
  | .local _ .vmem, ⟨0, _⟩ => ⟨S1x1x256, .f32⟩
  | .local _ .vmem, ⟨1, _⟩ => ⟨S1x1x256, .f32⟩
  | .local _ .vmem, ⟨2, _⟩ => ⟨S1x1x256, .f32⟩
  | .local _ .vmem, ⟨3, _⟩ => ⟨S1x1x256, .f32⟩
  | .local _ .vmem, ⟨4, _⟩ => ⟨S1x1x256, .f32⟩
  | .local _ .vmem, ⟨5, _⟩ => ⟨S1x1x256, .f32⟩
  | .local _ .vmem, ⟨6, _⟩ => ⟨S1x1x256, .f32⟩
  | .local _ .vmem, ⟨7, _⟩ => ⟨S1x1x256, .f32⟩
  | .local _ .smem, ⟨0, _⟩ => ⟨S65536, .i32⟩
  | .local _ .smem, ⟨1, _⟩ => ⟨S65536, .i32⟩
  | .local _ .smem, ⟨2, _⟩ => ⟨S65536, .i32⟩
  | _, _ => ⟨S3x512x128, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v3 : Ref sig .tc := ⟨.hbm, 4, rfl⟩
abbrev main_v5 : Ref sig .tc := ⟨.hbm, 5, rfl⟩
abbrev main_v7 : Ref sig .tc := ⟨.hbm, 6, rfl⟩
abbrev main_v8 : Ref sig .tc := ⟨.hbm, 7, rfl⟩
abbrev main_v9 : Ref sig .tc := ⟨.hbm, 8, rfl⟩
abbrev main_v10 : Ref sig .tc := ⟨.hbm, 9, rfl⟩
abbrev main_v2 : Ref sig .tc := ⟨.smem, 0, rfl⟩
abbrev main_v4 : Ref sig .tc := ⟨.smem, 1, rfl⟩
abbrev main_v6 : Ref sig .tc := ⟨.smem, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![65536], ![false]⟩

abbrev pre0 : Pipeline.Prefetch sig := ⟨3, ![main_v2.idx, main_v4.idx, main_v6.idx], fun | 0 => main_v2.names | 1 => main_v4.names | 2 => main_v6.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def cc0_transform_0 (k0_off1_inb : ∀ i : grid0.Coords, ∀ a, (k0_off1 i) a + S1.size a ≤ S65536.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S65536) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_1 (k0_off1_inb : ∀ i : grid0.Coords, ∀ a, (k0_off1 i) a + S1.size a ≤ S65536.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S65536) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S65536.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 2 (Rect.unit (s := S65536) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S3x512x128_S3x65536 : S3x512x128.ShapeCasts S3x65536
  slices_S3x65536_S1x65536_0_0 : S3x65536.Slices ![0, 0] S1x65536
  shapeCasts_S1x65536_S65536 : S1x65536.ShapeCasts S65536
  slices_S3x65536_S1x65536_1_0 : S3x65536.Slices ![1, 0] S1x65536
  slices_S3x65536_S1x65536_2_0 : S3x65536.Slices ![2, 0] S1x65536
  shapeCasts_S50257x256_S50257x1x256 : S50257x256.ShapeCasts S50257x1x256
  numel1_S1 : S1.numel = 1
  inb_S1x1x256_S1x1x256_0_0_0 : ∀ a, (![0, 0, 0] : Fin 3 → Nat) a + S1x1x256.size a ≤ S1x1x256.size a
  h_S1x1x256 : 0 < S1x1x256.numel
  shapeCasts_S1x1x256_S1x1x256 : S1x1x256.ShapeCasts S1x1x256
  shapeCasts_S65536x1x256_S65536x256 : S65536x1x256.ShapeCasts S65536x256
  shapeCasts_S65536x256_S512x128x256 : S65536x256.ShapeCasts S512x128x256
  hrank0 : 0 < grid0.rank
  k0_off1_inb : ∀ i : grid0.Coords, ∀ a, (k0_off1 i) a + S1.size a ≤ S65536.size a
  hstage0_0 : ∀ j, (stage0_0 j).IsWhole
  nbuf0_0 : grid0.bufCount reads0_0 false = 2
  hreads0_0 : ∀ {F : FTy → Type} [FloatOps F] (pf : pre0.Contents (Elt F)) (i i' : grid0.Coords), (∀ a, reads0_0 a = true → i a = i' a) → cc0_transform_0 k0_off1_inb numel1_S1 pf i = cc0_transform_0 k0_off1_inb numel1_S1 pf i'
  hstage0_1 : ∀ j, (stage0_1 j).IsWhole
  nbuf0_1 : grid0.bufCount reads0_1 false = 2
  hreads0_1 : ∀ {F : FTy → Type} [FloatOps F] (pf : pre0.Contents (Elt F)) (i i' : grid0.Coords), (∀ a, reads0_1 a = true → i a = i' a) → cc0_transform_1 k0_off1_inb numel1_S1 pf i = cc0_transform_1 k0_off1_inb numel1_S1 pf i'
  hstage0_2 : ∀ j, (stage0_2 j).IsWhole
  nbuf0_2 : grid0.bufCount reads0_2 false = 2
  hreads0_2 : ∀ {F : FTy → Type} [FloatOps F] (pf : pre0.Contents (Elt F)) (i i' : grid0.Coords), (∀ a, reads0_2 a = true → i a = i' a) → cc0_transform_2 k0_off1_inb numel1_S1 pf i = cc0_transform_2 k0_off1_inb numel1_S1 pf i'
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x256.size a ≤ S65536x1x256.size a
  hwx0_3 : ∀ i : grid0.Coords, EltTy.bits .f32 = 32 ∨ (Rect.block (s := S65536x1x256) S1x1x256.size (cc0_transform_3 i) (hinb0_3 i)).WholeWords (EltTy.packing .f32)

variable [Facts₀]

abbrev spec0_0 : Pipeline.WinSpec sig grid0.rank :=
  Pipeline.WinSpec.ofSpec (Memref.whole main_v7) S1x1x256.size reads0_0 false false 2 stage0_0 sem0_0 nbuf0_0 hstage0_0

abbrev spec0_1 : Pipeline.WinSpec sig grid0.rank :=
  Pipeline.WinSpec.ofSpec (Memref.whole main_v7) S1x1x256.size reads0_1 false false 2 stage0_1 sem0_1 nbuf0_1 hstage0_1

abbrev spec0_2 : Pipeline.WinSpec sig grid0.rank :=
  Pipeline.WinSpec.ofSpec (Memref.whole main_v7) S1x1x256.size reads0_2 false false 2 stage0_2 sem0_2 nbuf0_2 hstage0_2

abbrev spec0_3 : Pipeline.WinSpec sig grid0.rank :=
  Pipeline.WinSpec.ofSpec (Memref.whole main_v8) S1x1x256.size reads0_3 true false 2 stage0_3 sem0_3 nbuf0_3 hstage0_3

abbrev spec0 : Fin 4 → Pipeline.WinSpec sig grid0.rank := fun | 0 => spec0_0 | 1 => spec0_1 | 2 => spec0_2 | 3 => spec0_3 | ⟨_ + 4, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | 3 => nbuf0_3 | ⟨_ + 4, h⟩ => absurd h (Nat.not_lt.2 (Nat.le_add_left _ _))
abbrev ix0 (pf : pre0.Contents (Elt F)) : (w : Fin 4) → grid0.Coords → Fin (spec0 w).shape.rank → Nat := fun | 0 => cc0_transform_0 k0_off1_inb numel1_S1 pf | 1 => cc0_transform_1 k0_off1_inb numel1_S1 pf | 2 => cc0_transform_2 k0_off1_inb numel1_S1 pf | 3 => cc0_transform_3 | ⟨_ + 4, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 pf | 1 => hreads0_1 pf | 2 => hreads0_2 pf | 3 => hreads0_3 | ⟨_ + 4, h⟩ => absurd h (Nat.not_lt.2 (Nat.le_add_left _ _))
def ok0 (pf : pre0.Contents (Elt F)) : Prop :=
  (∀ i : grid0.Coords, ∃ h : (∀ a, (cc0_transform_0 k0_off1_inb numel1_S1 pf i a + 1) * S1x1x256.size a ≤ S50257x1x256.size a), EltTy.bits .f32 = 32 ∨ (Rect.block (s := S50257x1x256) S1x1x256.size (cc0_transform_0 k0_off1_inb numel1_S1 pf i) h).WholeWords (EltTy.packing .f32)) ∧
  (∀ i : grid0.Coords, ∃ h : (∀ a, (cc0_transform_1 k0_off1_inb numel1_S1 pf i a + 1) * S1x1x256.size a ≤ S50257x1x256.size a), EltTy.bits .f32 = 32 ∨ (Rect.block (s := S50257x1x256) S1x1x256.size (cc0_transform_1 k0_off1_inb numel1_S1 pf i) h).WholeWords (EltTy.packing .f32)) ∧
  (∀ i : grid0.Coords, ∃ h : (∀ a, (cc0_transform_2 k0_off1_inb numel1_S1 pf i a + 1) * S1x1x256.size a ≤ S50257x1x256.size a), EltTy.bits .f32 = 32 ∨ (Rect.block (s := S50257x1x256) S1x1x256.size (cc0_transform_2 k0_off1_inb numel1_S1 pf i) h).WholeWords (EltTy.packing .f32))
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun pf hok => fun | 0 => fun i a => (hok.1 i).elim fun h _ => h a | 1 => fun i a => (hok.2.1 i).elim fun h _ => h a | 2 => fun i a => (hok.2.2 i).elim fun h _ => h a | 3 => hinb0_3 | ⟨_ + 4, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun pf hok => fun | 0 => fun i => (hok.1 i).elim fun _ h => h | 1 => fun i => (hok.2.1 i).elim fun _ h => h | 2 => fun i => (hok.2.2 i).elim fun _ h => h | 3 => hwx0_3 | ⟨_ + 4, h⟩ => absurd h (Nat.not_lt.2 (Nat.le_add_left _ _))

class Facts : Prop extends Facts₀ where
  harr0 : ∀ w, (spec0 w).arr.IsWhole

variable [Facts]
-- ==== ReferenceIdeal.lean ====
abbrev S3x512x128 : Shape := ⟨3, ![3, 512, 128]⟩
abbrev S50257x256 : Shape := ⟨2, ![50257, 256]⟩
abbrev S_ : Shape := ⟨0, ![]⟩
abbrev S3x512x128x1 : Shape := ⟨4, ![3, 512, 128, 1]⟩
abbrev S1 : Shape := ⟨1, ![1]⟩
abbrev S1x1x1x1 : Shape := ⟨4, ![1, 1, 1, 1]⟩
abbrev S3x512x128x256 : Shape := ⟨4, ![3, 512, 128, 256]⟩
abbrev S512x128x256 : Shape := ⟨3, ![512, 128, 256]⟩

abbrev nBuf : Space → Nat
  | .hbm => 27
  | .vmem => 0
  | .smem => 0
  | _ => 0

abbrev bufTy : (tb : Table) → Fin (tcTables nBuf tb) → BufTy
  | .hbm, ⟨0, _⟩ => ⟨S3x512x128, .i32⟩
  | .hbm, ⟨1, _⟩ => ⟨S50257x256, .f32⟩
  | .hbm, ⟨2, _⟩ => ⟨S_, .i32⟩
  | .hbm, ⟨3, _⟩ => ⟨S3x512x128, .i32⟩
  | .hbm, ⟨4, _⟩ => ⟨S3x512x128, .i1⟩
  | .hbm, ⟨5, _⟩ => ⟨S_, .i32⟩
  | .hbm, ⟨6, _⟩ => ⟨S3x512x128, .i32⟩
  | .hbm, ⟨7, _⟩ => ⟨S3x512x128, .i32⟩
  | .hbm, ⟨8, _⟩ => ⟨S3x512x128, .i32⟩
  | .hbm, ⟨9, _⟩ => ⟨S3x512x128x1, .i32⟩
  | .hbm, ⟨10, _⟩ => ⟨S1, .i32⟩
  | .hbm, ⟨11, _⟩ => ⟨S_, .i32⟩
  | .hbm, ⟨12, _⟩ => ⟨S3x512x128x1, .i32⟩
  | .hbm, ⟨13, _⟩ => ⟨S3x512x128x1, .i1⟩
  | .hbm, ⟨14, _⟩ => ⟨S1x1x1x1, .i32⟩
  | .hbm, ⟨15, _⟩ => ⟨S3x512x128x1, .i32⟩
  | .hbm, ⟨16, _⟩ => ⟨S3x512x128x1, .i1⟩
  | .hbm, ⟨17, _⟩ => ⟨S3x512x128x1, .i1⟩
  | .hbm, ⟨18, _⟩ => ⟨S_, .i1⟩
  | .hbm, ⟨19, _⟩ => ⟨S3x512x128, .i1⟩
  | .hbm, ⟨20, _⟩ => ⟨S3x512x128x256, .f32⟩
  | .hbm, ⟨21, _⟩ => ⟨S3x512x128x256, .i1⟩
  | .hbm, ⟨22, _⟩ => ⟨S_, .f32⟩
  | .hbm, ⟨23, _⟩ => ⟨S3x512x128x256, .f32⟩
  | .hbm, ⟨24, _⟩ => ⟨S3x512x128x256, .f32⟩
  | .hbm, ⟨25, _⟩ => ⟨S_, .f32⟩
  | .hbm, ⟨26, _⟩ => ⟨S512x128x256, .f32⟩
  | _, _ => ⟨S3x512x128, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_c : Ref sig .tc := ⟨.hbm, 2, rfl⟩
abbrev main_call0_v0 : Ref sig .tc := ⟨.hbm, 3, rfl⟩
abbrev main_call0_v1 : Ref sig .tc := ⟨.hbm, 4, rfl⟩
abbrev main_call0_c_0 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_c_1 : Ref sig .tc := ⟨.hbm, 10, rfl⟩
abbrev main_call0_c_2 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_3 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_cst : Ref sig .tc := ⟨.hbm, 22, rfl⟩
abbrev main_call0_v15 : Ref sig .tc := ⟨.hbm, 23, rfl⟩
abbrev main_v0 : Ref sig .tc := ⟨.hbm, 24, rfl⟩
abbrev main_cst : Ref sig .tc := ⟨.hbm, 25, rfl⟩
abbrev main_v1 : Ref sig .tc := ⟨.hbm, 26, rfl⟩

abbrev nD : Nat := 1
abbrev τ : Topo := Topo.v7x

variable {F : FTy → Type} [FloatOps F]

class Facts₀ : Prop where
  bcast_S_S3x512x128 : S_.BroadcastsInDim S3x512x128 (![] : Fin 0 → Fin S3x512x128.rank)
  bcast_S3x512x128_S3x512x128x1_0_1_2 : S3x512x128.BroadcastsInDim S3x512x128x1 (![0, 1, 2] : Fin 3 → Fin S3x512x128x1.rank)
  bcast_S_S3x512x128x1 : S_.BroadcastsInDim S3x512x128x1 (![] : Fin 0 → Fin S3x512x128x1.rank)
  bcast_S1_S1x1x1x1_3 : S1.BroadcastsInDim S1x1x1x1 (![3] : Fin 1 → Fin S1x1x1x1.rank)
  bcast_S1x1x1x1_S3x512x128x1_0_1_2_3 : S1x1x1x1.BroadcastsInDim S3x512x128x1 (![0, 1, 2, 3] : Fin 4 → Fin S3x512x128x1.rank)
  reducesTo_S3x512x128x1_S3x512x128_d3 : S3x512x128x1.ReducesTo [3] S3x512x128
  h_S_ : 0 < S_.numel
  bcast_S3x512x128_S3x512x128x256_0_1_2 : S3x512x128.BroadcastsInDim S3x512x128x256 (![0, 1, 2] : Fin 3 → Fin S3x512x128x256.rank)
  bcast_S_S3x512x128x256 : S_.BroadcastsInDim S3x512x128x256 (![] : Fin 0 → Fin S3x512x128x256.rank)
  reducesTo_S3x512x128x256_S512x128x256_d0 : S3x512x128x256.ReducesTo [0] S512x128x256
  gather_S50257x256_S3x512x128x1_S3x512x128x256_3_0_n_n_0_3_1256_wf : GatherDims.WF S50257x256 S3x512x128x1 S3x512x128x256 [3] [0] [] [0] [] 3 ![1, 256]

variable [Facts₀]

def gather_S50257x256_S3x512x128x1_S3x512x128x256_3_0_n_n_0_3_1256 : GatherDims S50257x256 S3x512x128x1 S3x512x128x256 where
  offsetDims := [3]
  collapsedSliceDims := [0]
  operandBatchingDims := []
  startIndicesBatchingDims := []
  startIndexMap := [0]
  indexVectorDim := 3
  sliceSizes := ![1, 256]
  wf := gather_S50257x256_S3x512x128x1_S3x512x128x256_3_0_n_n_0_3_1256_wf

class Facts : Prop extends Facts₀ where

variable [Facts]
-- ==== Proof.Spec.lean ====
/-
  The specification both programs meet: an embedding-bag sum over three index planes.

  The integer input has three planes of 512 × 128 index words; the table has 50257 rows of 256 reals. The result
  at (s, b, d) is the sum, in the order (first + second) + third, of the table's entries in column d of the three
  rows that the words at (0, s, b), (1, s, b), (2, s, b) name. A word names the row equal to its unsigned value;
  the function `row` is made total by reducing modulo the number of rows, which changes nothing for a word that is
  in range (`row_val`).
-/
import Idealize.ShloMosaic.PureOps.Ideal
import Idealize.ShloMosaic.Lib.ValueIdx

noncomputable section

namespace Cert.NGram

open Idealize.ShloMosaic Idealize.ShloMosaic.ValueIdx

/-- The index planes, the table and the result. -/
abbrev SIn : Shape := ⟨3, ![3, 512, 128]⟩
abbrev STab : Shape := ⟨2, ![50257, 256]⟩
abbrev SOut : Shape := ⟨3, ![512, 128, 256]⟩

/-- The table row an index word names. -/
def row (x : BitVec 32) : Fin 50257 := ⟨x.toNat % 50257, Nat.mod_lt _ (by decide)⟩

theorem row_val {x : BitVec 32} (h : x.toNat < 50257) : (row x).val = x.toNat := Nat.mod_eq_of_lt h

/-- Every index word names a row of the table. -/
def InRange (inp : IVec SIn 32) : Prop := ∀ j, (inp j).toNat < 50257

/-- The result at explicit coordinates: the three named rows' entries in column `d`, added left to right. -/
def Gat (inp : IVec SIn 32) (w : FVec Ideal STab .f32) (s : Fin 512) (b : Fin 128) (d : Fin 256) : EReal :=
  (w (ix2 (row (inp (ix3 0 s b))) d) + w (ix2 (row (inp (ix3 1 s b))) d)) + w (ix2 (row (inp (ix3 2 s b))) d)

/-- The result as one array. -/
def G (inp : IVec SIn 32) (w : FVec Ideal STab .f32) : FVec Ideal SOut .f32 :=
  fun j => Gat inp w ⟨(j 0).val, (j 0).isLt⟩ ⟨(j 1).val, (j 1).isLt⟩ ⟨(j 2).val, (j 2).isLt⟩

theorem G_apply (inp : IVec SIn 32) (w : FVec Ideal STab .f32) (s : Fin 512) (b : Fin 128) (d : Fin 256) :
    G inp w (ix3 s b d) = Gat inp w s b d := rfl

/-- An array that agrees with the specification at every triple of coordinates is the specification. -/
theorem eq_G_of_apply (inp : IVec SIn 32) (w : FVec Ideal STab .f32) (x : FVec Ideal SOut .f32)
    (h : ∀ (s : Fin 512) (b : Fin 128) (d : Fin 256), x (ix3 s b d) = Gat inp w s b d) : x = G inp w := by
  funext j
  rw [eq_ix3 j]
  exact (h _ _ _).trans (G_apply inp w _ _ _).symm

end Cert.NGram

end
-- ==== Proof.PreRange.lean ====
/-
  The precondition read back: every index word names a row of the table.

  The precondition is a conjunction of three reductions by "and" over all axes: the table's entries are finite,
  every index word is at least 0 as a signed number, and every index word is below 50257 as a signed number.
  A conjunction that is 1 has each conjunct 1; a reduction by "and" over all axes that is 1 has a 1 at every
  index. A 32-bit word whose signed value is at least 0 has its top bit clear, so its signed value is its
  unsigned value; being below 50257 signed, it is below 50257 unsigned.
-/
import proofs.«124249_j35588099015425_2_alg».proof.Proof.Gen.Pre_finite_inputs
import proofs.«124249_j35588099015425_2_alg».proof.Proof.Spec
import Idealize.ShloMosaic.Lib.ReduceAll

noncomputable section

namespace Cert.PreSide

open Idealize.ShloMosaic Cert.Pre_finite_inputs Cert.Pre_finite_inputs.Gen

/-- The rank-0 shape has one index. -/
instance : Subsingleton S_.Idx := ⟨fun a b => funext fun d => d.elim0⟩

/-- A word that is at least 0 and below 50257, both signed, has signed value in [0, 50257) and unsigned value
    below 50257: its top bit is clear, so the two readings agree. -/
theorem word_range (x : BitVec 32) (h0 : IntOp.cmpi .sge x 0#32 = 1#1) (h1 : IntOp.cmpi .slt x 50257#32 = 1#1) :
    0 ≤ x.toInt ∧ x.toInt < 50257 ∧ x.toNat < 50257 := by
  rw [IntOp.cmpi_sge, show (0#32 : BitVec 32).toInt = 0 from by decide] at h0
  rw [IntOp.cmpi_slt, show (50257#32 : BitVec 32).toInt = 50257 from by decide] at h1
  have hx : 2 * x.toNat < 2 ^ 32 := BitVec.toInt_pos_iff.1 h0
  have e : x.toInt = (x.toNat : Int) := BitVec.toInt_eq_toNat_of_lt hx
  refine ⟨h0, h1, ?_⟩
  omega

/-- The two integer conjuncts of the precondition at an index: the comparison words there are 1. -/
theorem elem_of_pre {F : FTy → Type} [FloatOps F] (inp : IVec S3x512x128 32) (w : FVec F S50257x256 .f32)
    (h : fn (F := F) inp w = fun _ => 1#1) (j : S3x512x128.Idx) :
    IntOp.cmpi .sge (inp j) 0#32 = 1#1 ∧ IntOp.cmpi .slt (inp j) 50257#32 = 1#1 := by
  have e := congrFun h ValueIdx.ix0
  dsimp only [fn] at e
  obtain ⟨e1, e3⟩ := IntOp.andi_eq_one.1 e
  obtain ⟨-, e2⟩ := IntOp.andi_eq_one.1 e1
  exact ⟨Host.reduce_andi_all _ _ _ _ _ e2 j, Host.reduce_andi_all _ _ _ _ _ e3 j⟩

theorem nonneg_of_pre {F : FTy → Type} [FloatOps F] (inp : IVec S3x512x128 32) (w : FVec F S50257x256 .f32)
    (h : fn (F := F) inp w = fun _ => 1#1) : ∀ j, 0 ≤ (inp j).toInt :=
  fun j => (word_range _ (elem_of_pre inp w h j).1 (elem_of_pre inp w h j).2).1

theorem lt_of_pre {F : FTy → Type} [FloatOps F] (inp : IVec S3x512x128 32) (w : FVec F S50257x256 .f32)
    (h : fn (F := F) inp w = fun _ => 1#1) : ∀ j, (inp j).toInt < 50257 :=
  fun j => (word_range _ (elem_of_pre inp w h j).1 (elem_of_pre inp w h j).2).2.1

/-- Under the precondition every index word names a row of the table. -/
theorem inRange_of_pre {F : FTy → Type} [FloatOps F] (inp : IVec S3x512x128 32) (w : FVec F S50257x256 .f32)
    (h : fn (F := F) inp w = fun _ => 1#1) : Cert.NGram.InRange inp :=
  fun j => (word_range _ (elem_of_pre inp w h j).1 (elem_of_pre inp w h j).2).2.2

end Cert.PreSide

end
-- ==== Proof.KBase.lean ====
/-
  The pipelined kernel's proof data.

  The kernel runs one grid point per token t < 65536. Three input windows read ONE array — the table with a unit middle
  axis, 50257 × 1 × 256 — each at the row its own prefetched index table names at t; the output window is row t of the
  65536 × 1 × 256 result. At a point the body loads the three staged rows x₀, x₁, x₂ and stores (x₀ + x₁) + x₂ over the whole
  output block. Between points nothing is kept but the tables themselves (held for the index maps) and the scoped buffers
  no window stages.

  The data below are stated at ANY admissible contents `ap` of the three tables, kept a variable: which contents the
  region meets is decided last, from the program's precondition.
-/
import proofs.«124249_j35588099015425_2_alg».proof.Proof.Gen.KernelIdeal.Launch
import proofs.«124249_j35588099015425_2_alg».proof.Proof.Gen.KernelIdeal.Skeleton
import Idealize.ShloMosaic.Lib.Pipeline.Regions
import Idealize.ShloMosaic.Lib.Pipeline.FrameBody
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- Core `c`'s buffers at launch, as a valuation; -/
abbrev V₀ (c : Dev nD) : Valuation τ sig (Elt F) := fun b => m ((c : Dev nD), b)
/-- and when the region is entered: the eight host operations before it have run. -/
abbrev V (c : Dev nD) (b : Ref sig .tc) : Buf (Elt F) ((c : Thread nD τ).loc b) := StableHlo.after hostOps0 (V₀ m c) b

variable (ap : (pcfg0 (F := F)).Adm)

/-- Window `w`'s block at point `t`, read off its array as the region finds it. -/
def iblk (c : Dev nD) (w : Fin (cfg0 ap).W) (t : Fin (cfg0 ap).N) :
    (((cfg0 ap).win w).xblock ((cfg0 ap).grid.coords t)).Idx → Elt F ((cfg0 ap).win w).elt :=
  (((cfg0 ap).win w).blk t).view.read (Elt F) (V m c (Pipeline.arrRef spec0 w))

/-- The rectangle of the body's one store and of its loads: the whole 1 × 1 × 256 staging block. -/
abbrev r0 : Rect S1x1x256 := Rect.unit (s := S1x1x256) ![0, 0, 0] S1x1x256.size inb_S1x1x256_S1x1x256_0_0_0

/-- What the body leaves in the output's staging buffer, from the three input blocks: its one store read back. -/
def outv (x0 x1 x2 : Vec F S1x1x256 .f32) : Vec F S1x1x256 .f32 :=
  View.canon [⟨r0, k0_pay1 (View.ld x0 r0) (View.ld x1 r0) (View.ld x2 r0)⟩]

/-- The one store covers the block. -/
theorem cover_out (p0 : Vec F S1x1x256 .f32) (y : S1x1x256.Idx) :
    ∃ pc ∈ ([⟨r0, p0⟩] : List (View.Piece (Elt F) S1x1x256 .f32)), y ∈ pc.1.set :=
  View.cover_of_tiled [⟨r0, p0⟩] S1x1x256.size (by rfl) y

/-- The invariant between points: the three tables, whole, at the admissible contents, and the scoped buffers no window
    stages. -/
def Φc (c : Dev nD) : sProp 𝕄 :=
  iprop(Pipeline.prefHeld (Ix := Unit) (Name := ℕ) (U := UR sig nD τ) (Lvl := ℕ) pre0 c (fun _ => fullShare) ap.1
    ∗ Pipeline.scopedRest (Ix := Unit) (Name := ℕ) (U := UR sig nD τ) (Lvl := ℕ) (Val := Elt F) spec0 c)

/-- The proof data on core `c`: the arrays as the region finds them; after the body each input's buffer at its block and
    the output's at the sum of the three; the table's one points-to divided among its three readers. -/
def dat (c : Dev nD) : Dat τ (Elt F) Unit ℕ (UR sig nD τ) ℕ (cfg0 ap) c where
  A w := V m c (Pipeline.arrRef spec0 w)
  after w t := match w with
    | ⟨0, _⟩ => iblk m ap c 0 t
    | ⟨1, _⟩ => iblk m ap c 1 t
    | ⟨2, _⟩ => iblk m ap c 2 t
    | ⟨3, _⟩ => outv (iblk m ap c 0 t) (iblk m ap c 1 t) (iblk m ap c 2 t)
  Φ _ := Φc ap c
  q w := match w with
    | ⟨0, _⟩ => fullShare.left
    | ⟨1, _⟩ => fullShare.right.left
    | ⟨2, _⟩ => fullShare.right.right
    | ⟨3, _⟩ => fullShare
  owed _ := 0

theorem A_eq (c : Dev nD) (w : Fin (cfg0 ap).W) : (dat m ap c).A w = V m c (Pipeline.arrRef spec0 w) := by
  dsimp only [dat]

theorem after_0 (c : Dev nD) (t : Fin (cfg0 ap).N) : (dat m ap c).after 0 t = iblk m ap c 0 t := by dsimp only [dat]; rfl
theorem after_1 (c : Dev nD) (t : Fin (cfg0 ap).N) : (dat m ap c).after 1 t = iblk m ap c 1 t := by dsimp only [dat]; rfl
theorem after_2 (c : Dev nD) (t : Fin (cfg0 ap).N) : (dat m ap c).after 2 t = iblk m ap c 2 t := by dsimp only [dat]; rfl
theorem after_3 (c : Dev nD) (t : Fin (cfg0 ap).N) :
    (dat m ap c).after 3 t = outv (iblk m ap c 0 t) (iblk m ap c 1 t) (iblk m ap c 2 t) := by dsimp only [dat]; rfl

end Cert.KernelIdeal.Hand

end
-- ==== Proof.KBody.lean ====
/-
  The kernel body's obligation.

  At a grid point the body is handed four whole 1 × 1 × 256 staging blocks: the three table rows x₀, x₁, x₂ the
  point's index words name, and the output block at whatever it then holds. It loads the three rows (and the
  output block, whose value it does not use) and stores (x₀ + x₁) + x₂ over the whole output block; it touches
  nothing else: not the three index tables it is also passed, not the invariant, not what the core owes. So it
  returns the three inputs as they were and the output at the one store read back.

  An input window's current buffer holds its block at every point, fetched there or not: an unfetched input has
  not moved its block index, and the body left the block in place.
-/
import proofs.«124249_j35588099015425_2_alg».proof.Proof.KBase

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's triple -/

set_option maxHeartbeats 1000000 in
/-- The body on whole staging blocks, the three inputs at x₀, x₁, x₂ and the output at anything, runs to the
    continuation holding the inputs as they were and the output at the store of (x₀ + x₁) + x₂ read back. The three
    index tables it is passed are never accessed. -/
theorem sound_kernel (c : Dev nD) (E : Set ℕ) (i : grid0.Coords)
    (arg1 : Memref sig .tc .smem S65536 .i32) (harg1 : arg1.IsWhole) (arg2 : Memref sig .tc .smem S65536 .i32) (harg2 : arg2.IsWhole)
    (arg3 : Memref sig .tc .smem S65536 .i32) (harg3 : arg3.IsWhole)
    (arg4 : Memref sig .tc .vmem S1x1x256 .f32) (harg4 : arg4.IsWhole) (arg5 : Memref sig .tc .vmem S1x1x256 .f32) (harg5 : arg5.IsWhole)
    (arg6 : Memref sig .tc .vmem S1x1x256 .f32) (harg6 : arg6.IsWhole) (arg7 : Memref sig .tc .vmem S1x1x256 .f32) (harg7 : arg7.IsWhole)
    (x0 x1 x2 : Vec F S1x1x256 .f32) (K : PUnit → sProp 𝕄) :
    iprop(owns (c : Thread nD τ) arg4 fullShare x0 ∗ owns (c : Thread nD τ) arg5 fullShare x1 ∗ owns (c : Thread nD τ) arg6 fullShare x2
        ∗ (∃ d, owns (c : Thread nD τ) arg7 fullShare d)
        ∗ (iprop(owns (c : Thread nD τ) arg4 fullShare x0 ∗ owns (c : Thread nD τ) arg5 fullShare x1 ∗ owns (c : Thread nD τ) arg6 fullShare x2
            ∗ owns (c : Thread nD τ) arg7 fullShare (outv x0 x1 x2)) -∗ K ⟨⟩))
      ⊢ wp frame (wpE (defs₀ (F := F)) Variants.none c none) E
          (cc0__ngram_sum_kernel i arg1 harg1 arg2 harg2 arg3 harg3 arg4 harg4 arg5 harg5 arg6 harg6 arg7 harg7) K := by
  simp only [cc0__ngram_sum_kernel_eq_skeleton]; unfold cc0__ngram_sum_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover_out _)

variable (m : (ℓ : Loc nD τ sig) → Buf (Elt F) ℓ) (ap : (pcfg0 (F := F)).Adm)

/-! ## What an input's current buffer holds -/

/-- Window 0's current buffer holds its block at every point, fetched there or not. -/
theorem before_0 (c : Dev nD) (t : Fin (cfg0 ap).N) (d) : (dat m ap c).before 0 t d = iblk m ap c 0 t :=
  ((dat m ap c).before_in_eq_fetched 0 rfl (fun _ => rfl) (fun _ _ _ => rfl)
      (fun t => by rw [after_0]; unfold Dat.blockOf iblk; rw [A_eq]; try rfl) t d).trans
    (by unfold Dat.fetched Dat.blockOf iblk; rw [A_eq]; try rfl)

/-- Window 1's current buffer holds its block at every point, fetched there or not. -/
theorem before_1 (c : Dev nD) (t : Fin (cfg0 ap).N) (d) : (dat m ap c).before 1 t d = iblk m ap c 1 t :=
  ((dat m ap c).before_in_eq_fetched 1 rfl (fun _ => rfl) (fun _ _ _ => rfl)
      (fun t => by rw [after_1]; unfold Dat.blockOf iblk; rw [A_eq]; try rfl) t d).trans
    (by unfold Dat.fetched Dat.blockOf iblk; rw [A_eq]; try rfl)

/-- Window 2's current buffer holds its block at every point, fetched there or not. -/
theorem before_2 (c : Dev nD) (t : Fin (cfg0 ap).N) (d) : (dat m ap c).before 2 t d = iblk m ap c 2 t :=
  ((dat m ap c).before_in_eq_fetched 2 rfl (fun _ => rfl) (fun _ _ _ => rfl)
      (fun t => by rw [after_2]; unfold Dat.blockOf iblk; rw [A_eq]; try rfl) t d).trans
    (by unfold Dat.fetched Dat.blockOf iblk; rw [A_eq]; try rfl)

/-! ## The body at a point -/

/-- The current staging memref of each window at point `t`: which of its buffers it is on. -/
abbrev st0 (t : Fin (cfg0 ap).N) := ((cfg0 ap).win 0).stage ((cfg0 ap).slots t 0)
abbrev st1 (t : Fin (cfg0 ap).N) := ((cfg0 ap).win 1).stage ((cfg0 ap).slots t 1)
abbrev st2 (t : Fin (cfg0 ap).N) := ((cfg0 ap).win 2).stage ((cfg0 ap).slots t 2)
abbrev st3 (t : Fin (cfg0 ap).N) := ((cfg0 ap).win 3).stage ((cfg0 ap).slots t 3)

/-- The body at point `t`, on what the pipeline calls it with: the point's coordinates, the three index tables
    whole, and each window's current staging buffer. -/
abbrev bodyAt (t : Fin (cfg0 ap).N) : Prog (TpuEff nD τ sig (Elt F) Λ₀ .tc) PUnit :=
  cc0__ngram_sum_kernel (grid0.coords t) (Memref.whole main_v2) (Memref.isWhole_whole _) (Memref.whole main_v4) (Memref.isWhole_whole _)
    (Memref.whole main_v6) (Memref.isWhole_whole _)
    (spec0_0.stage ((cfg0 ap).slots t 0)) (Facts₀.hstage0_0 (((cfg0 ap).slots t 0).cast Facts₀.nbuf0_0))
    (spec0_1.stage ((cfg0 ap).slots t 1)) (Facts₀.hstage0_1 (((cfg0 ap).slots t 1).cast Facts₀.nbuf0_1))
    (spec0_2.stage ((cfg0 ap).slots t 2)) (Facts₀.hstage0_2 (((cfg0 ap).slots t 2).cast Facts₀.nbuf0_2))
    (spec0_3.stage ((cfg0 ap).slots t 3)) (Facts₀.hstage0_3 (((cfg0 ap).slots t 3).cast Facts₀.nbuf0_3))

/-! ## The body obligation, at a generic point -/

/-- What the body is called with at point `t`, the windows one by one, -/
def bodyPre (c : Dev nD) (t : Fin (cfg0 ap).N) : sProp 𝕄 :=
  iprop((dat m ap c).Φ t.castSucc ∗ (dat m ap c).owesAt () t.castSucc
    ∗ (∃ d, owns (c : Thread nD τ) (st0 ap t) fullShare ((dat m ap c).before 0 t d))
    ∗ (∃ d, owns (c : Thread nD τ) (st1 ap t) fullShare ((dat m ap c).before 1 t d))
    ∗ (∃ d, owns (c : Thread nD τ) (st2 ap t) fullShare ((dat m ap c).before 2 t d))
    ∗ (∃ d, owns (c : Thread nD τ) (st3 ap t) fullShare ((dat m ap c).before 3 t d)))

/-- and what it returns. -/
def bodyPost (c : Dev nD) (t : Fin (cfg0 ap).N) : sProp 𝕄 :=
  iprop((dat m ap c).Φ t.succ ∗ (dat m ap c).owesAt () t.succ
    ∗ owns (c : Thread nD τ) (st0 ap t) fullShare ((dat m ap c).after 0 t)
    ∗ owns (c : Thread nD τ) (st1 ap t) fullShare ((dat m ap c).after 1 t)
    ∗ owns (c : Thread nD τ) (st2 ap t) fullShare ((dat m ap c).after 2 t)
    ∗ owns (c : Thread nD τ) (st3 ap t) fullShare ((dat m ap c).after 3 t))

/-- The body at any point: the inputs' buffers hold their blocks, so the body's triple applies; the invariant and what
    the core owes pass through unread. -/
theorem sound_body (c : Dev nD) (t : Fin (cfg0 ap).N) :
    bodyPre m ap c t ⊢ wp frame (wpE (defs₀ (F := F)) Variants.none c none) Set.univ (bodyAt ap t) (fun _ => bodyPost m ap c t) := by
  unfold bodyPre bodyPost bodyAt
  simp only [before_0, before_1, before_2]
  rw [show (dat m ap c).Φ t.succ = (dat m ap c).Φ t.castSucc from rfl,
    show (dat m ap c).owesAt () t.succ = (dat m ap c).owesAt () t.castSucc from rfl,
    after_0, after_1, after_2, after_3]
  iintro ⟨HΦ, Ho, ⟨%d0, H0⟩, ⟨%d1, H1⟩, ⟨%d2, H2⟩, ⟨%d3, H3⟩⟩
  iapply (sound_kernel c Set.univ _ _ _ _ _ _ _ _ _ _ _ _ _ _ _ (iblk m ap c 0 t) (iblk m ap c 1 t) (iblk m ap c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation (c : Dev nD) : BodyObligation (dat (F := F) m ap c) (defs₀ (F := F)) Variants.none () Set.univ := fun t => by
  rw [bigSep_W0, bigSep_W0]
  exact sound_body m ap c t

end Cert.KernelIdeal.Hand

end
-- ==== Proof.KRun.lean ====
/-
  The kernel's run: the eight host operations, the pipelined region, the two host operations after it.

  @main is a line of reshapes and slices that makes the three index tables and the table with a unit middle axis, then the
  region, then two reshapes of the region's result. The run is stated at any admissible contents `ap` of the tables that
  the host operations have in fact produced (`hpf`). Entering the region, the table array's one points-to is divided in
  three among the windows that read it; leaving it, the three parts are joined again. Every weakly fair execution
  terminates, and at the end the two argument arrays hold what they held and the result holds the two reshapes of what the
  region's write-backs assembled.
-/
import proofs.«124249_j35588099015425_2_alg».proof.Proof.KBase

set_option pp.maxSteps 20000
set_option pp.deepTerms false

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
variable (ap : (pcfg0 (F := F)).Adm)

abbrev EP : Emb (UR sig nD τ) (MT nD τ sig Unit (Elt F) ℕ (UR sig nD τ) ℕ) := emb₁
abbrev 𝒱₀ : Variants := Variants.none
abbrev L : GSem nD τ sig → Finset Unit := fun _ => ∅
abbrev lv : GSem nD τ sig → Unit → ℕ := fun _ _ => 0

/-- The one pipeline's tables, the same on every core. -/
abbrev adm : (p : Fin 1) → (pcfgs (F := F) p).Adm := fun _ => ap

/-- The proof data, as the library's family indexed by pipeline: here there is one. -/
abbrev dats (p : Fin 1) (c : Dev nD) : Dat τ (Elt F) Unit ℕ (UR sig nD τ) ℕ (Pipeline.pin (pcfgs (F := F)) (adm ap) p) c := dat m ap c

/-- What rides beside the buffers through the host operations: the core owing nothing. -/
abbrev R (c : Dev nD) : sProp 𝕄 := iprop(∃ W, owes (c : Thread nD τ) (0 : CellTallies nD τ sig Unit) W)

/-- The unscoped buffers, listed. -/
theorem unscopedBufs_list (c : Dev nD) (W : (b : Ref sig .tc) → Buf (Elt F) ((c : Thread nD τ).loc b)) :
    (unscopedBufs c W : sProp 𝕄) = iprop(
      (((c : Thread nD τ).loc main_arg0) ↦{fullShare} W main_arg0) ∗ (((c : Thread nD τ).loc main_arg1) ↦{fullShare} W main_arg1)
      ∗ (((c : Thread nD τ).loc main_v0) ↦{fullShare} W main_v0) ∗ (((c : Thread nD τ).loc main_v1) ↦{fullShare} W main_v1)
      ∗ (((c : Thread nD τ).loc main_v3) ↦{fullShare} W main_v3) ∗ (((c : Thread nD τ).loc main_v5) ↦{fullShare} W main_v5)
      ∗ (((c : Thread nD τ).loc main_v7) ↦{fullShare} W main_v7) ∗ (((c : Thread nD τ).loc main_v8) ↦{fullShare} W main_v8)
      ∗ (((c : Thread nD τ).loc main_v9) ↦{fullShare} W main_v9) ∗ (((c : Thread nD τ).loc main_v10) ↦{fullShare} W main_v10)
      ∗ (((c : Thread nD τ).loc main_v2) ↦{fullShare} W main_v2) ∗ (((c : Thread nD τ).loc main_v4) ↦{fullShare} W main_v4)
      ∗ (((c : Thread nD τ).loc main_v6) ↦{fullShare} W main_v6)) := by
  unfold unscopedBufs
  exact bigSep_eq_bigSepL_of_eq [main_arg0, main_arg1, main_v0, main_v1, main_v3, main_v5, main_v7, main_v8, main_v9, main_v10, main_v2, main_v4, main_v6]
    (by decide) (by decide) _

set_option backward.isDefEq.respectTransparency.types false in
/-- The pipeline's arrays, window by window: the table at its three parts, the result whole. -/
theorem arrays_list (c : Dev nD) (Fm : (w : Fin (cfg0 ap).W) → Buf (Elt F) (((cfg0 ap).win w).arr.view.loc (c : Thread nD τ))) :
    ((dat m ap c).arrays Fm : sProp 𝕄) = iprop(
      ((((cfg0 ap).win (0 : Fin 4)).arr.view.loc (c : Thread nD τ)) ↦{fullShare.left} Fm (0 : Fin 4)) ∗ ((((cfg0 ap).win (1 : Fin 4)).arr.view.loc (c : Thread nD τ)) ↦{fullShare.right.left} Fm (1 : Fin 4))
      ∗ ((((cfg0 ap).win (2 : Fin 4)).arr.view.loc (c : Thread nD τ)) ↦{fullShare.right.right} Fm (2 : Fin 4)) ∗ ((((cfg0 ap).win (3 : Fin 4)).arr.view.loc (c : Thread nD τ)) ↦{fullShare} Fm (3 : Fin 4))) := by
  unfold Dat.arrays
  rw [bigSep_W0]
  have hs0 : ((cfg0 ap).win (0 : Fin 4)).arr.view.set = Finset.univ := (arr_whole0 0).set_eq_univ
  have hs1 : ((cfg0 ap).win (1 : Fin 4)).arr.view.set = Finset.univ := (arr_whole0 1).set_eq_univ
  have hs2 : ((cfg0 ap).win (2 : Fin 4)).arr.view.set = Finset.univ := (arr_whole0 2).set_eq_univ
  have hs3 : ((cfg0 ap).win (3 : Fin 4)).arr.view.set = Finset.univ := (arr_whole0 3).set_eq_univ
  have q0 : (dat m ap c).share (0 : Fin 4) = fullShare.left := rfl
  have q1 : (dat m ap c).share (1 : Fin 4) = fullShare.right.left := rfl
  have q2 : (dat m ap c).share (2 : Fin 4) = fullShare.right.right := rfl
  have q3 : (dat m ap c).share (3 : Fin 4) = fullShare := rfl
  rw [hs0, hs3, q0, q1, q2, q3]

/-- The three tables, listed. -/
theorem prefHeld_list (c : Dev nD) (q : PosShare TreeShare) (T : pre0.Contents (Elt F)) :
    (Pipeline.prefHeld (Ix := Unit) (Name := ℕ) (U := UR sig nD τ) (Lvl := ℕ) pre0 c (fun _ => q) T : sProp 𝕄) = iprop(
      (((c : Thread nD τ).loc main_v2) ↦{q} T 0) ∗ (((c : Thread nD τ).loc main_v4) ↦{q} T 1) ∗ (((c : Thread nD τ).loc main_v6) ↦{q} T 2)) := by
  unfold Pipeline.prefHeld
  exact bigSep_univ_eq_bigSepL [(0 : Fin 3), 1, 2] (by decide) (by decide) _

/-! ## The segments -/

/-- The two argument arrays reach the region, and the end, as launched: no host operation before the region writes them. -/
theorem V_arg0 (c : Dev nD) : V m c main_arg0 = m ((c : Thread nD τ).loc main_arg0) := by
  show StableHlo.after hostOps0 (V₀ m c) (Proc.devRef .tc main_arg0) = _
  after_results
theorem V_arg1 (c : Dev nD) : V m c main_arg1 = m ((c : Thread nD τ).loc main_arg1) := by
  show StableHlo.after hostOps0 (V₀ m c) (Proc.devRef .tc main_arg1) = _
  after_results

/-- THE HOST OPERATIONS BEFORE THE REGION, over the unscoped buffers. -/
def seg0 : Pipeline.HostSeg (Name := ℕ) (U := UR sig nD τ) (pcfgs (F := F)) defs₀ 𝒱₀ L lv :=
  Pipeline.HostSeg.ofOps _ _ _ _ _ (Pipeline.ucRefs τ sig) hostOps0
    (fun op h => Pipeline.sub_ucRefs op ((List.forall_iff_forall_mem.mp hostOps0_sub) op h))
    (by intro _ h; (repeat (cases h with | head => rfl | tail _ h => ?_)); exact nomatch h) (V₀ m) R

/-- The buffers the two host operations after the region run within: the region's result and its two reshapes. -/
abbrev tailRefs3 : List (DevRef τ sig) := [(main_v8 : DevRef τ sig), (main_v9 : DevRef τ sig), (main_v10 : DevRef τ sig)]

/-- Core `c`'s buffers when the region is left: the result array as the write-backs assembled it, every other as it was. -/
def V1 (c : Dev nD) : Valuation τ sig (Elt F) :=
  Function.update (StableHlo.after hostOps0 (V₀ m c)) (main_v8 : DevRef τ sig) ((dat m ap c).arrAt 3 (cfg0 ap).N)

theorem V1_v8 (c : Dev nD) : V1 m ap c (main_v8 : DevRef τ sig) = (dat m ap c).arrAt 3 (cfg0 ap).N := by
  unfold V1; exact Function.update_self _ _ _
theorem V1_v9 (c : Dev nD) : V1 m ap c (main_v9 : DevRef τ sig) = V m c main_v9 := by
  unfold V1; exact Function.update_of_ne (by decide) _ _
theorem V1_v10 (c : Dev nD) : V1 m ap c (main_v10 : DevRef τ sig) = V m c main_v10 := by
  unfold V1; exact Function.update_of_ne (by decide) _ _

/-- Those three buffers held at a valuation, one by one. -/
theorem held3 (c : Dev nD) (W : Valuation τ sig (Elt F)) :
    (StableHlo.held (c : Thread nD τ) (tailRefs3).toFinset W : sProp 𝕄) = iprop(
      (((c : Thread nD τ).loc main_v8) ↦{fullShare} W (main_v8 : DevRef τ sig)) ∗ (((c : Thread nD τ).loc main_v9) ↦{fullShare} W (main_v9 : DevRef τ sig))
      ∗ (((c : Thread nD τ).loc main_v10) ↦{fullShare} W (main_v10 : DevRef τ sig))) := by
  unfold StableHlo.held
  exact bigSep_eq_bigSepL tailRefs3 (by decide) _

/-- What bypasses the region and is read at the end: the two argument arrays. -/
abbrev Keep (c : Dev nD) : sProp 𝕄 :=
  iprop((((c : Thread nD τ).loc main_arg0) ↦{fullShare} V m c main_arg0) ∗ (((c : Thread nD τ).loc main_arg1) ↦{fullShare} V m c main_arg1))

/-- THE HOST OPERATIONS AFTER THE REGION, over the result and its two reshapes. -/
def seg1 : Pipeline.HostSeg (Name := ℕ) (U := UR sig nD τ) (pcfgs (F := F)) defs₀ 𝒱₀ L lv :=
  Pipeline.HostSeg.ofOps _ _ _ _ _ (tailRefs3).toFinset hostOps1
    (by
      intro op h; simp only [List.mem_cons, List.mem_nil_iff, or_false] at h
      rcases h with rfl | rfl
      · show ({(main_v8 : DevRef τ sig), (main_v9 : DevRef τ sig)} : Finset (DevRef τ sig)) ⊆ _
        decide
      · show ({(main_v9 : DevRef τ sig), (main_v10 : DevRef τ sig)} : Finset (DevRef τ sig)) ⊆ _
        decide)
    (by intro _ h; (repeat (cases h with | head => rfl | tail _ h => ?_)); exact nomatch h) (V1 m ap) (fun c => iprop(Keep m c ∗ R c))

-- `iapply` of a lemma stated over the pinned configuration unifies only when unification may unfold plain definitions in a
-- metavariable's type
set_option backward.isDefEq.respectTransparency.types false in
/-- THE REGION: entered from what the first host segment left — the table's points-to divided among its three windows, the
    result's buffer whole, the three tables into the invariant, the argument arrays and the tail's two buffers bypassing —
    and left with the result at what the write-backs assembled. -/
def reg0 (hbody : ∀ c, BodyObligation (dat (F := F) m ap c) (defs₀ (F := F)) Variants.none () Set.univ)
    (hpf : ∀ c, V m c main_v2 = ap.1 0 ∧ V m c main_v4 = ap.1 1 ∧ V m c main_v6 = ap.1 2) :
    Pipeline.RegionSeg (pcfgs (F := F)) (adm ap) (dats m ap) () defs₀ 𝒱₀ L lv 0 where
  win := winFacts₀0
  block_pos := block_pos0
  stage_whole := stage_whole0
  K := PEmpty
  osem := fun k => k.elim
  ho := Pipeline.OwnSemFacts.none _
  hbody c := (hbody c).loose
  hwaits := Pipeline.hwaits_of_owed_zero _ _ _ _ L lv 0 fun _ _ => rfl
  pre c := iprop(StableHlo.held (c : Thread nD τ) (Pipeline.ucRefs τ sig) (StableHlo.after hostOps0 (V₀ m c)) ∗ R c)
  post c := iprop(StableHlo.held (c : Thread nD τ) (tailRefs3).toFinset (V1 m ap c) ∗ (Keep m c ∗ R c))
  X c := iprop(emp)
  Y c := iprop(emp)
  Z c := iprop(Keep m c ∗ (((c : Thread nD τ).loc main_v9) ↦{fullShare} V m c main_v9) ∗ (((c : Thread nD τ).loc main_v10) ↦{fullShare} V m c main_v10))
  hentry c := by
    rw [show StableHlo.held (c : Thread nD τ) (Pipeline.ucRefs τ sig) (StableHlo.after hostOps0 (V₀ m c)) = unscopedBufs c (V m c) from (Pipeline.unscopedBufs_held c _).symm,
      unscopedBufs_list, arrays_list, prefHeld_list, ← (hpf c).1, ← (hpf c).2.1, ← (hpf c).2.2]
    iintro ⟨⟨⟨Ha0, Ha1, -, -, -, -, H7, H8, H9, H10, H2, H4, H6⟩, HO⟩, -, -⟩
    ihave H7s := (pointsTo_share (PosShare.mem_left_op_right fullShare)).1 $$ H7
    icases H7s with ⟨H7l, H7r⟩
    ihave H7rs := (pointsTo_share (PosShare.mem_left_op_right fullShare.right)).1 $$ H7r
    icases H7rs with ⟨H7rl, H7rr⟩
    imodintro
    isplitl [H7l H7rl H7rr H8]
    · isplitl [H7l]; · iexact H7l
      isplitl [H7rl]; · iexact H7rl
      isplitl [H7rr]; · iexact H7rr
      iexact H8
    isplitl [H2 H4 H6]
    · isplitl [H2]; · iexact H2
      isplitl [H4]; · iexact H4
      iexact H6
    isplitl [HO]
    · unfold Pipeline.Dat.owesAt Pipeline.owesWithin
      icases HO with ⟨%W, HO⟩; iexists W; isplitr; · ipureintro; exact fun _ _ => Or.inl trivial
      iexact HO
    isplitr; · iempintro
    isplitl [Ha0 Ha1]
    · isplitl [Ha0]; · iexact Ha0
      iexact Ha1
    isplitl [H9]; · iexact H9
    iexact H10
  hin c := by
    rw [show (dats m ap 0 c).Φ 0 = Φc ap c from rfl]; unfold Φc
    iintro ⟨-, Hp, Hr⟩
    isplitl [Hp] <;> iassumption
  hout c := by
    rw [Pipeline.ownSems0_none, show (dats m ap 0 c).Φ (Fin.last _) = Φc ap c from rfl]; unfold Φc
    iintro ⟨-, Hr⟩
    isplitr; · iempintro
    isplitr; · iempintro
    iexact Hr
  hexit c := by
    rw [arrays_list, held3, V1_v8, V1_v9, V1_v10]
    iintro ⟨⟨-, -, -, H8⟩, HO, -, ⟨HK, H9, H10⟩⟩
    imodintro
    isplitl [H8 H9 H10]
    · isplitl [H8]; · iexact H8
      isplitl [H9]; · iexact H9
      iexact H10
    isplitl [HK]; · iexact HK
    unfold Pipeline.Dat.owesAt Pipeline.owesWithin
    icases HO with ⟨%W, -, HO⟩; iexists W; iexact HO

/-! ## The run -/

/-- @main as the list of the three. -/
abbrev segs (hbody : ∀ c, BodyObligation (dat (F := F) m ap c) (defs₀ (F := F)) Variants.none () Set.univ)
    (hpf : ∀ c, V m c main_v2 = ap.1 0 ∧ V m c main_v4 = ap.1 1 ∧ V m c main_v6 = ap.1 2) :
    List (Pipeline.Seg (pcfgs (F := F)) (adm ap) (dats m ap) () defs₀ 𝒱₀ L lv) :=
  [.host (seg0 m), .region (reg0 m ap hbody hpf), .host (seg1 m ap)]

/-- The launch element: the pipeline library's at the staging cells. -/
def u₀ : UR sig nD τ :=
  initOf (Pipeline.cells (Pipeline.pin (pcfgs (F := F)) (adm ap)) (cellOf_inj (adm ap))) (Pipeline.launchToks (Pipeline.pin (pcfgs (F := F)) (adm ap)) (cellOf_inj (adm ap)))

/-- The result at the end: the two reshapes after the region applied to what the region left. -/
def outF (c : Dev nD) : Buf (Elt F) ((c : Thread nD τ).loc main_v10) := StableHlo.after hostOps1 (V1 m ap c) (main_v10 : DevRef τ sig)

/-- The physical post: the result at `outF`, the two argument arrays as launched. -/
def QC : PUnit × MemSt nD τ sig (Elt F) → Prop := fun r => ∀ c : Dev nD,
  r.2.mem ((c : Thread nD τ).loc main_v10) = outF m ap c
    ∧ r.2.mem ((c : Thread nD τ).loc main_arg0) = m ((c : Thread nD τ).loc main_arg0)
    ∧ r.2.mem ((c : Thread nD τ).loc main_arg1) = m ((c : Thread nD τ).loc main_arg1)

-- the library theorem's implicit arguments are found by unifying its conclusion with this one, which takes unfolding plain
-- definitions in a metavariable's type
set_option backward.isDefEq.respectTransparency.types false in
/-- At the compiled mesh, for any float values, from any memory with zero counters, at tables the host operations produce and
    the pipeline admits: every weakly fair execution of @main on the TensorCores terminates, and every final state has the
    result at `outF` and both argument arrays unchanged. -/
theorem run_main (hbody : ∀ c, BodyObligation (dat (F := F) m ap c) (defs₀ (F := F)) Variants.none () Set.univ)
    (hpf : ∀ c, V m c main_v2 = ap.1 0 ∧ V m c main_v4 = ap.1 1 ∧ V m c main_v6 = ap.1 2) :
    θ_run defs (onTc (τ := τ) (main (F := F))) (s₀ m ρ) (QC m ap) :=
  Pipeline.θ_run_regions_kit (pcfgs (F := F)) (adm ap) (dats m ap) () (cellOf_inj (adm ap)) EP defs₀ 𝒱₀ L lv m ρ main (segs m ap hbody hpf)
    (fun c Q => by rw [main_segs (adm ap) (dats m ap) () 𝒱₀ L lv (seg0 m) (seg1 m ap) (reg0 m ap hbody hpf) rfl rfl c])
    (by simp only [Pipeline.Seg.pipes_host, Pipeline.Seg.pipes_region, Pipeline.Seg.pipes_nil]; decide) (O₀ := 0) (hL := fun _ _ => rfl) (G := fun _ => iprop(emp)) (u₀ := u₀ ap)
    (hu₀ := by
      have h : (ownU (u₀ ap) : sProp 𝕄) ⊢ BI.own ((EP (F := F)) (u₀ ap)) := .rfl
      unfold u₀ at h
      unfold u₀
      iintro Hu
      ihave Hu' := h $$ Hu
      imodintro
      isplitl [Hu']; · iexact Hu'
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V₀ m c) ∗ R c))
    (Tₙ := fun c => iprop(StableHlo.held (c : Thread nD τ) (tailRefs3).toFinset (StableHlo.after hostOps1 (V1 m ap c)) ∗ Keep m c))
    (hch := ⟨fun _ => .rfl, fun _ => .rfl, fun _ => .rfl, fun c => by
        show (iprop(StableHlo.held (c : Thread nD τ) (tailRefs3).toFinset (StableHlo.after hostOps1 (V1 m ap c)) ∗ (Keep m c ∗ R c)) : sProp 𝕄) ⊢ _
        iintro ⟨Hh, HK, HR⟩
        isplitl [Hh HK]
        · isplitl [Hh] <;> iassumption
        iexact HR⟩)
    (hinit := by
      refine Pipeline.initEach L lv fun c => ?_
      rw [show unscopedBufs c (fun b => m ((c : Thread nD τ).loc b)) = StableHlo.held (c : Thread nD τ) (Pipeline.ucRefs τ sig) (V₀ m c) from Pipeline.unscopedBufs_held c (V₀ m c)]
      iintro ⟨⟨Hh, -, HO, -, -, -⟩, -⟩
      imodintro
      isplitl [Hh]; · iexact Hh
      iexists ∅; iexact HO)
    (QY := fun c s => s.mem ((c : Thread nD τ).loc main_v10) = outF m ap c
      ∧ s.mem ((c : Thread nD τ).loc main_arg0) = m ((c : Thread nD τ).loc main_arg0)
      ∧ s.mem ((c : Thread nD τ).loc main_arg1) = m ((c : Thread nD τ).loc main_arg1))
    (hfin := fun c s' => by
      rw [held3]; unfold Keep; rw [V_arg0, V_arg1]
      iintro ⟨⟨⟨-, -, H10⟩, Ha0, Ha1⟩, HSI⟩
      icombine HSI H10 gives %h10
      icombine HSI Ha0 gives %h0
      icombine HSI Ha1 gives %h1
      imodintro
      isplitr
      · ipureintro
        exact ⟨Buf.eq_of_forall_mem_univ h10, Buf.eq_of_forall_mem_univ h0, Buf.eq_of_forall_mem_univ h1⟩
      iexact HSI)
    (hQ := fun _ h => h)

/-- info: 'Cert.KernelIdeal.Hand.run_main' depends on axioms: [propext, Classical.choice, Quot.sound] -/
#guard_msgs in #print axioms run_main

end Cert.KernelIdeal.Hand

end
-- ==== Proof.KOut.lean ====
/-
  The kernel's result read back through the two reshapes after the region.
-/
import proofs.«124249_j35588099015425_2_alg».proof.Proof.KRun

noncomputable section

namespace Cert.KernelIdeal.Hand

open Cert.KernelIdeal Cert.KernelIdeal.Gen
open Idealize.ShloMosaic Idealize.ShloMosaic.TcCoe
open Idealize.SL Idealize.SL.Sem

variable {F : FTy → Type} [FloatOps F]

variable (m : (ℓ : Loc nD τ sig) → Buf (Elt F) ℓ) (ap : (pcfg0 (F := F)).Adm)

/-- The result at the end is the region's result array, as the write-backs assembled it, with its unit axis dropped and its
    65536 rows split into 512 × 128. -/
theorem outF_eq (c : Dev nD) :
    outF m ap c = fun i => shapeCast S512x128x256
      (fun j => shapeCast S65536x256 ((dat m ap c).arrAt 3 (cfg0 ap).N) shapeCasts_S65536x1x256_S65536x256 j)
      shapeCasts_S65536x256_S512x128x256 i := by
  unfold outF
  show StableHlo.after hostOps1 (V1 m ap c) (Proc.devRef .tc main_v10) = _
  after_results
  rw [V1_v8]
  rfl

end Cert.KernelIdeal.Hand

end
-- ==== Proof.HostLayout.lean ====
/-
  Host layout operations read at an index.

  The host program wraps its kernel call in reshapes and unit-stride slices. Each of them moves no element: a reshape
  keeps the row-major position, a slice shifts the coordinates by its offsets. The lemmas below read the chains that
  occur at explicit coordinates, for an arbitrary element type and arbitrary proofs of the side conditions.

  Row-major positions used: in [3, 512, 128] the position of (n, s, b) is (n * 512 + s) * 128 + b; in [3, 65536] the
  position of (n, t) is n * 65536 + t; so (n, s, b) and (n, s * 128 + b) name the same element. In [65536, 1, 256] and
  [65536, 256] the positions of (q, 0, d) and (q, d) are both q * 256 + d; in [512, 128, 256] the position of (s, b, d)
  is (s * 128 + b) * 256 + d.
-/
import Idealize.ShloMosaic.Lib.ValueIdx
import Idealize.ShloMosaic.Lib.ValueLayout
import Idealize.ShloMosaic.Lib.Pipeline.Value

namespace Cert.HostLayout

open Idealize.ShloMosaic Idealize.ShloMosaic.ValueIdx

variable {α : Type}

/-! ## The index planes: [3, 512, 128] → [3, 65536] → one row [1, 65536] → [65536] -/

/-- The two trailing axes merged: [3, 512, 128] read as [3, 65536] at (n, t), with t = s * 128 + b, is the operand at
    (n, s, b). -/
theorem merge_trailing_apply (x : (⟨3, ![3, 512, 128]⟩ : Shape).Idx → α)
    (h : (⟨3, ![3, 512, 128]⟩ : Shape).ShapeCasts ⟨2, ![3, 65536]⟩) (n : Fin 3) (t : Fin 65536) (s : Fin 512) (b : Fin 128)
    (ht : t.val = s.val * 128 + b.val) :
    shapeCast ⟨2, ![3, 65536]⟩ x h (ix2 n t) = x (ix3 n s b) :=
  shapeCast_apply x h _ _ (by
    rw [Shape.rowMajor_val_three, Shape.rowMajor_val_two]
    show (n.val * 512 + s.val) * 128 + b.val = n.val * 65536 + t.val
    omega)

/-- Row n of a [3, 65536] array, as a [1, 65536] block, read at (u, t) is the operand at (n, t). -/
theorem slice_row_apply (y : (⟨2, ![3, 65536]⟩ : Shape).Idx → α) (n : Nat) (hn : n < 3)
    (h : (⟨2, ![3, 65536]⟩ : Shape).Slices ![n, 0] ⟨2, ![1, 65536]⟩) (u : Fin 1) (t : Fin 65536) :
    extractStridedSlice ⟨2, ![1, 65536]⟩ ![n, 0] y h (ix2 u t) = y (ix2 (⟨n, hn⟩ : Fin 3) t) :=
  extractStridedSlice_apply _ y h _ _ fun a => match a with
    | ⟨0, _⟩ => by show n = n + u.val; omega
    | ⟨1, _⟩ => by show t.val = 0 + t.val; omega

/-- Plane n of the index words, flattened: the chain reshape, slice of row n, reshape, read at the flat position
    t = s * 128 + b, is the operand at (n, s, b). -/
theorem plane_apply_of_eq (x : (⟨3, ![3, 512, 128]⟩ : Shape).Idx → α) (n : Nat) (hn : n < 3)
    (h1 : (⟨3, ![3, 512, 128]⟩ : Shape).ShapeCasts ⟨2, ![3, 65536]⟩)
    (h2 : (⟨2, ![3, 65536]⟩ : Shape).Slices ![n, 0] ⟨2, ![1, 65536]⟩)
    (h3 : (⟨2, ![1, 65536]⟩ : Shape).ShapeCasts ⟨1, ![65536]⟩)
    (t : Fin 65536) (s : Fin 512) (b : Fin 128) (ht : t.val = s.val * 128 + b.val) :
    shapeCast ⟨1, ![65536]⟩ (extractStridedSlice ⟨2, ![1, 65536]⟩ ![n, 0] (shapeCast ⟨2, ![3, 65536]⟩ x h1) h2) h3 (ix1 t)
      = x (ix3 (⟨n, hn⟩ : Fin 3) s b) :=
  (shapeCast_1a_a_apply _ h3 t).trans <|
    (slice_row_apply _ n hn h2 0 t).trans <|
      merge_trailing_apply x h1 ⟨n, hn⟩ t s b ht

/-- The same chain read at an arbitrary flat position t: the operand at (n, t / 128, t % 128). -/
theorem plane_apply (x : (⟨3, ![3, 512, 128]⟩ : Shape).Idx → α) (n : Nat) (hn : n < 3)
    (h1 : (⟨3, ![3, 512, 128]⟩ : Shape).ShapeCasts ⟨2, ![3, 65536]⟩)
    (h2 : (⟨2, ![3, 65536]⟩ : Shape).Slices ![n, 0] ⟨2, ![1, 65536]⟩)
    (h3 : (⟨2, ![1, 65536]⟩ : Shape).ShapeCasts ⟨1, ![65536]⟩) (t : Fin 65536) :
    shapeCast ⟨1, ![65536]⟩ (extractStridedSlice ⟨2, ![1, 65536]⟩ ![n, 0] (shapeCast ⟨2, ![3, 65536]⟩ x h1) h2) h3 (ix1 t)
      = x (ix3 (⟨n, hn⟩ : Fin 3) (⟨t.val / 128, by omega⟩ : Fin 512) (⟨t.val % 128, by omega⟩ : Fin 128)) :=
  plane_apply_of_eq x n hn h1 h2 h3 t _ _ (by show t.val = t.val / 128 * 128 + t.val % 128; omega)

/-- The same chain read at the flat position of (s, b): the operand at (n, s, b). -/
theorem plane_apply_sb (x : (⟨3, ![3, 512, 128]⟩ : Shape).Idx → α) (n : Nat) (hn : n < 3)
    (h1 : (⟨3, ![3, 512, 128]⟩ : Shape).ShapeCasts ⟨2, ![3, 65536]⟩)
    (h2 : (⟨2, ![3, 65536]⟩ : Shape).Slices ![n, 0] ⟨2, ![1, 65536]⟩)
    (h3 : (⟨2, ![1, 65536]⟩ : Shape).ShapeCasts ⟨1, ![65536]⟩) (s : Fin 512) (b : Fin 128) :
    shapeCast ⟨1, ![65536]⟩ (extractStridedSlice ⟨2, ![1, 65536]⟩ ![n, 0] (shapeCast ⟨2, ![3, 65536]⟩ x h1) h2) h3
        (ix1 (⟨s.val * 128 + b.val, by omega⟩ : Fin 65536))
      = x (ix3 (⟨n, hn⟩ : Fin 3) s b) :=
  plane_apply_of_eq x n hn h1 h2 h3 _ s b rfl

/-! ### The three planes at their literal offsets -/

section Planes
variable (x : (⟨3, ![3, 512, 128]⟩ : Shape).Idx → α)
  (h1 : (⟨3, ![3, 512, 128]⟩ : Shape).ShapeCasts ⟨2, ![3, 65536]⟩)
  (h3 : (⟨2, ![1, 65536]⟩ : Shape).ShapeCasts ⟨1, ![65536]⟩)

theorem plane0_apply (h2 : (⟨2, ![3, 65536]⟩ : Shape).Slices ![0, 0] ⟨2, ![1, 65536]⟩) (t : Fin 65536) :
    shapeCast ⟨1, ![65536]⟩ (extractStridedSlice ⟨2, ![1, 65536]⟩ ![0, 0] (shapeCast ⟨2, ![3, 65536]⟩ x h1) h2) h3 (ix1 t)
      = x (ix3 (0 : Fin 3) (⟨t.val / 128, by omega⟩ : Fin 512) (⟨t.val % 128, by omega⟩ : Fin 128)) :=
  plane_apply x 0 (by decide) h1 h2 h3 t

theorem plane1_apply (h2 : (⟨2, ![3, 65536]⟩ : Shape).Slices ![1, 0] ⟨2, ![1, 65536]⟩) (t : Fin 65536) :
    shapeCast ⟨1, ![65536]⟩ (extractStridedSlice ⟨2, ![1, 65536]⟩ ![1, 0] (shapeCast ⟨2, ![3, 65536]⟩ x h1) h2) h3 (ix1 t)
      = x (ix3 (1 : Fin 3) (⟨t.val / 128, by omega⟩ : Fin 512) (⟨t.val % 128, by omega⟩ : Fin 128)) :=
  plane_apply x 1 (by decide) h1 h2 h3 t

theorem plane2_apply (h2 : (⟨2, ![3, 65536]⟩ : Shape).Slices ![2, 0] ⟨2, ![1, 65536]⟩) (t : Fin 65536) :
    shapeCast ⟨1, ![65536]⟩ (extractStridedSlice ⟨2, ![1, 65536]⟩ ![2, 0] (shapeCast ⟨2, ![3, 65536]⟩ x h1) h2) h3 (ix1 t)
      = x (ix3 (2 : Fin 3) (⟨t.val / 128, by omega⟩ : Fin 512) (⟨t.val % 128, by omega⟩ : Fin 128)) :=
  plane_apply x 2 (by decide) h1 h2 h3 t

theorem plane0_apply_sb (h2 : (⟨2, ![3, 65536]⟩ : Shape).Slices ![0, 0] ⟨2, ![1, 65536]⟩) (s : Fin 512) (b : Fin 128) :
    shapeCast ⟨1, ![65536]⟩ (extractStridedSlice ⟨2, ![1, 65536]⟩ ![0, 0] (shapeCast ⟨2, ![3, 65536]⟩ x h1) h2) h3
        (ix1 (⟨s.val * 128 + b.val, by omega⟩ : Fin 65536)) = x (ix3 (0 : Fin 3) s b) :=
  plane_apply_sb x 0 (by decide) h1 h2 h3 s b

theorem plane1_apply_sb (h2 : (⟨2, ![3, 65536]⟩ : Shape).Slices ![1, 0] ⟨2, ![1, 65536]⟩) (s : Fin 512) (b : Fin 128) :
    shapeCast ⟨1, ![65536]⟩ (extractStridedSlice ⟨2, ![1, 65536]⟩ ![1, 0] (shapeCast ⟨2, ![3, 65536]⟩ x h1) h2) h3
        (ix1 (⟨s.val * 128 + b.val, by omega⟩ : Fin 65536)) = x (ix3 (1 : Fin 3) s b) :=
  plane_apply_sb x 1 (by decide) h1 h2 h3 s b

theorem plane2_apply_sb (h2 : (⟨2, ![3, 65536]⟩ : Shape).Slices ![2, 0] ⟨2, ![1, 65536]⟩) (s : Fin 512) (b : Fin 128) :
    shapeCast ⟨1, ![65536]⟩ (extractStridedSlice ⟨2, ![1, 65536]⟩ ![2, 0] (shapeCast ⟨2, ![3, 65536]⟩ x h1) h2) h3
        (ix1 (⟨s.val * 128 + b.val, by omega⟩ : Fin 65536)) = x (ix3 (2 : Fin 3) s b) :=
  plane_apply_sb x 2 (by decide) h1 h2 h3 s b

end Planes

/-! ## The table with a unit middle axis: [50257, 256] → [50257, 1, 256] -/

/-- The table read as [50257, 1, 256] at (r, u, d) is the table at (r, d), whatever the unit coordinate u. -/
theorem table_unit_apply (w : (⟨2, ![50257, 256]⟩ : Shape).Idx → α)
    (h : (⟨2, ![50257, 256]⟩ : Shape).ShapeCasts ⟨3, ![50257, 1, 256]⟩) (r : Fin 50257) (u : Fin 1) (d : Fin 256) :
    shapeCast ⟨3, ![50257, 1, 256]⟩ w h (ix3 r u d) = w (ix2 r d) :=
  shapeCast_apply w h _ _ (by
    have hu : u.val = 0 := by omega
    rw [Shape.rowMajor_val_three, Shape.rowMajor_val_two]
    show r.val * 256 + d.val = (r.val * 1 + u.val) * 256 + d.val
    omega)

/-! ## The result un-flattened: [65536, 1, 256] → [65536, 256] → [512, 128, 256] -/

/-- The unit middle axis dropped: [65536, 1, 256] read as [65536, 256] at (q, d) is the operand at (q, 0, d). -/
theorem drop_unit_apply (o : (⟨3, ![65536, 1, 256]⟩ : Shape).Idx → α)
    (h : (⟨3, ![65536, 1, 256]⟩ : Shape).ShapeCasts ⟨2, ![65536, 256]⟩) (q : Fin 65536) (d : Fin 256) :
    shapeCast ⟨2, ![65536, 256]⟩ o h (ix2 q d) = o (ix3 q (0 : Fin 1) d) :=
  shapeCast_apply o h _ _ (by
    rw [Shape.rowMajor_val_three, Shape.rowMajor_val_two]
    show (q.val * 1 + 0) * 256 + d.val = q.val * 256 + d.val
    omega)

/-- The leading axis split: [65536, 256] read as [512, 128, 256] at (s, b, d) is the operand at (s * 128 + b, d). -/
theorem split_leading_apply (y : (⟨2, ![65536, 256]⟩ : Shape).Idx → α)
    (h : (⟨2, ![65536, 256]⟩ : Shape).ShapeCasts ⟨3, ![512, 128, 256]⟩) (s : Fin 512) (b : Fin 128) (d : Fin 256) :
    shapeCast ⟨3, ![512, 128, 256]⟩ y h (ix3 s b d) = y (ix2 (⟨s.val * 128 + b.val, by omega⟩ : Fin 65536) d) :=
  shapeCast_apply y h _ _ (by
    rw [Shape.rowMajor_val_two, Shape.rowMajor_val_three]
    show (s.val * 128 + b.val) * 256 + d.val = (s.val * 128 + b.val) * 256 + d.val
    rfl)

/-- The two together: the result at (s, b, d) is the kernel's output at (s * 128 + b, 0, d). -/
theorem unflatten_apply (o : (⟨3, ![65536, 1, 256]⟩ : Shape).Idx → α)
    (h1 : (⟨3, ![65536, 1, 256]⟩ : Shape).ShapeCasts ⟨2, ![65536, 256]⟩)
    (h2 : (⟨2, ![65536, 256]⟩ : Shape).ShapeCasts ⟨3, ![512, 128, 256]⟩) (s : Fin 512) (b : Fin 128) (d : Fin 256) :
    shapeCast ⟨3, ![512, 128, 256]⟩ (shapeCast ⟨2, ![65536, 256]⟩ o h1) h2 (ix3 s b d)
      = o (ix3 (⟨s.val * 128 + b.val, by omega⟩ : Fin 65536) (0 : Fin 1) d) :=
  (split_leading_apply _ h2 s b d).trans (drop_unit_apply o h1 _ d)

/-! ## A block of the staging shape cast to itself -/

/-- A [1, 1, 256] block cast to its own shape is unchanged. -/
theorem staging_self (v : (⟨3, ![1, 1, 256]⟩ : Shape).Idx → α)
    (h : (⟨3, ![1, 1, 256]⟩ : Shape).ShapeCasts ⟨3, ![1, 1, 256]⟩) : shapeCast ⟨3, ![1, 1, 256]⟩ v h = v :=
  shapeCast_self v h

end Cert.HostLayout
-- ==== Proof.KOk.lean ====
/-
  The tables the region meets are admissible.

  Each input window's index map reads one word of its own table — the word at the grid point's position — and names
  the block (that word, 0, 0) of the 50257 × 1 × 256 table array. The block is inside the array when the word, read
  unsigned, is below 50257; on the two other axes the block index is 0 and the block is the whole axis. The element
  type is 32 bits wide, so the transfer ends are word-exact.

  The three tables, as the host operations leave them, are the three planes of the index input, flattened: table w
  at position t holds the input word at (w, t / 128, t % 128). So when every index word names a row of the table,
  every table word is below 50257, and the tables are admissible.

  The first statement holds for any contents of the tables whose every word is below 50257; the second shows that the
  program's tables meet that bound.
-/
import proofs.«124249_j35588099015425_2_alg».proof.Proof.KBase
import proofs.«124249_j35588099015425_2_alg».proof.Proof.HostLayout
import proofs.«124249_j35588099015425_2_alg».proof.Proof.Spec

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem

variable {F : FTy → Type} [FloatOps F]

/-! ## Admissible from a bound on the tables' words -/

/-- Any contents of the three tables whose every word is below 50257 are admissible: each window's block, at every grid
    point, is inside the table array, and its transfer ends are word-exact (32-bit elements). -/
theorem ok0_of_bound (pf : pre0.Contents (Elt F))
    (hb0 : ∀ t : Fin 65536, (pf 0 (ix1 t) : BitVec 32).toNat < 50257)
    (hb1 : ∀ t : Fin 65536, (pf 1 (ix1 t) : BitVec 32).toNat < 50257)
    (hb2 : ∀ t : Fin 65536, (pf 2 (ix1 t) : BitVec 32).toNat < 50257) : ok0 pf := by
  have key0 : ∀ j : S65536.Idx, ((pf 0 j : BitVec 32).toNat + 1) * 1 ≤ 50257 := fun j => by
    have e : (pf 0 j : BitVec 32) = pf 0 (ix1 (j 0)) := congrArg (pf 0) (eq_ix1 j)
    have := hb0 (j 0)
    rw [e]; omega
  have key1 : ∀ j : S65536.Idx, ((pf 1 j : BitVec 32).toNat + 1) * 1 ≤ 50257 := fun j => by
    have e : (pf 1 j : BitVec 32) = pf 1 (ix1 (j 0)) := congrArg (pf 1) (eq_ix1 j)
    have := hb1 (j 0)
    rw [e]; omega
  have key2 : ∀ j : S65536.Idx, ((pf 2 j : BitVec 32).toNat + 1) * 1 ≤ 50257 := fun j => by
    have e : (pf 2 j : BitVec 32) = pf 2 (ix1 (j 0)) := congrArg (pf 2) (eq_ix1 j)
    have := hb2 (j 0)
    rw [e]; omega
  unfold ok0
  refine ⟨fun i => ⟨fun a => ?_, Or.inl rfl⟩, fun i => ⟨fun a => ?_, Or.inl rfl⟩, fun i => ⟨fun a => ?_, Or.inl rfl⟩⟩
  · match a with
    | ⟨0, _⟩ => exact key0 _
    | ⟨1, _⟩ => show (0 + 1) * 1 ≤ 1; omega
    | ⟨2, _⟩ => show (0 + 1) * 256 ≤ 256; omega
  · match a with
    | ⟨0, _⟩ => exact key1 _
    | ⟨1, _⟩ => show (0 + 1) * 1 ≤ 1; omega
    | ⟨2, _⟩ => show (0 + 1) * 256 ≤ 256; omega
  · match a with
    | ⟨0, _⟩ => exact key2 _
    | ⟨1, _⟩ => show (0 + 1) * 1 ≤ 1; omega
    | ⟨2, _⟩ => show (0 + 1) * 256 ≤ 256; omega

/-! ## The program's tables -/

variable (m : (ℓ : Loc nD τ sig) → Buf (Elt F) ℓ)

/-- The three tables as the host operations leave them (the machine has one device). -/
def tbl : pre0.Contents (Elt F) := fun k => V m (0 : Dev nD) (pre0.ref k)

/-- Table 0 is plane 0 of the index input, flattened. -/
theorem tbl_0 : tbl m 0 = shapeCast S65536 (extractStridedSlice S1x65536 ![0, 0]
    (shapeCast S3x65536 (m (((0 : Dev nD).tc : Thread nD τ).loc main_arg0) : IVec S3x512x128 32) shapeCasts_S3x512x128_S3x65536) slices_S3x65536_S1x65536_0_0) shapeCasts_S1x65536_S65536 := by
  show StableHlo.after hostOps0 (V₀ m 0) (Proc.devRef .tc main_v2) = _
  after_results
  rfl

/-- Table 1 is plane 1 of the index input, flattened. -/
theorem tbl_1 : tbl m 1 = shapeCast S65536 (extractStridedSlice S1x65536 ![1, 0]
    (shapeCast S3x65536 (m (((0 : Dev nD).tc : Thread nD τ).loc main_arg0) : IVec S3x512x128 32) shapeCasts_S3x512x128_S3x65536) slices_S3x65536_S1x65536_1_0) shapeCasts_S1x65536_S65536 := by
  show StableHlo.after hostOps0 (V₀ m 0) (Proc.devRef .tc main_v4) = _
  after_results
  rfl

/-- Table 2 is plane 2 of the index input, flattened. -/
theorem tbl_2 : tbl m 2 = shapeCast S65536 (extractStridedSlice S1x65536 ![2, 0]
    (shapeCast S3x65536 (m (((0 : Dev nD).tc : Thread nD τ).loc main_arg0) : IVec S3x512x128 32) shapeCasts_S3x512x128_S3x65536) slices_S3x65536_S1x65536_2_0) shapeCasts_S1x65536_S65536 := by
  show StableHlo.after hostOps0 (V₀ m 0) (Proc.devRef .tc main_v6) = _
  after_results
  rfl

/-- Table 0 at position t holds the input word at (0, t / 128, t % 128). -/
theorem tbl_0_apply (t : Fin 65536) : (tbl m 0 (ix1 t) : BitVec 32)
    = (m (((0 : Dev nD).tc : Thread nD τ).loc main_arg0) : IVec S3x512x128 32) (ix3 (0 : Fin 3) (⟨t.val / 128, by omega⟩ : Fin 512) (⟨t.val % 128, by omega⟩ : Fin 128)) :=
  (congrFun (tbl_0 m) (ix1 t)).trans (Cert.HostLayout.plane0_apply _ _ _ _ t)

/-- Table 1 at position t holds the input word at (1, t / 128, t % 128). -/
theorem tbl_1_apply (t : Fin 65536) : (tbl m 1 (ix1 t) : BitVec 32)
    = (m (((0 : Dev nD).tc : Thread nD τ).loc main_arg0) : IVec S3x512x128 32) (ix3 (1 : Fin 3) (⟨t.val / 128, by omega⟩ : Fin 512) (⟨t.val % 128, by omega⟩ : Fin 128)) :=
  (congrFun (tbl_1 m) (ix1 t)).trans (Cert.HostLayout.plane1_apply _ _ _ _ t)

/-- Table 2 at position t holds the input word at (2, t / 128, t % 128). -/
theorem tbl_2_apply (t : Fin 65536) : (tbl m 2 (ix1 t) : BitVec 32)
    = (m (((0 : Dev nD).tc : Thread nD τ).loc main_arg0) : IVec S3x512x128 32) (ix3 (2 : Fin 3) (⟨t.val / 128, by omega⟩ : Fin 512) (⟨t.val % 128, by omega⟩ : Fin 128)) :=
  (congrFun (tbl_2 m) (ix1 t)).trans (Cert.HostLayout.plane2_apply _ _ _ _ t)

/-- Table 0 at the flat position of (s, b) holds the input word at (0, s, b). -/
theorem tbl_0_apply_sb (s : Fin 512) (b : Fin 128) : (tbl m 0 (ix1 (⟨s.val * 128 + b.val, by omega⟩ : Fin 65536)) : BitVec 32)
    = (m (((0 : Dev nD).tc : Thread nD τ).loc main_arg0) : IVec S3x512x128 32) (ix3 (0 : Fin 3) s b) :=
  (congrFun (tbl_0 m) (ix1 _)).trans (Cert.HostLayout.plane0_apply_sb _ _ _ _ s b)

/-- Table 1 at the flat position of (s, b) holds the input word at (1, s, b). -/
theorem tbl_1_apply_sb (s : Fin 512) (b : Fin 128) : (tbl m 1 (ix1 (⟨s.val * 128 + b.val, by omega⟩ : Fin 65536)) : BitVec 32)
    = (m (((0 : Dev nD).tc : Thread nD τ).loc main_arg0) : IVec S3x512x128 32) (ix3 (1 : Fin 3) s b) :=
  (congrFun (tbl_1 m) (ix1 _)).trans (Cert.HostLayout.plane1_apply_sb _ _ _ _ s b)

/-- Table 2 at the flat position of (s, b) holds the input word at (2, s, b). -/
theorem tbl_2_apply_sb (s : Fin 512) (b : Fin 128) : (tbl m 2 (ix1 (⟨s.val * 128 + b.val, by omega⟩ : Fin 65536)) : BitVec 32)
    = (m (((0 : Dev nD).tc : Thread nD τ).loc main_arg0) : IVec S3x512x128 32) (ix3 (2 : Fin 3) s b) :=
  (congrFun (tbl_2 m) (ix1 _)).trans (Cert.HostLayout.plane2_apply_sb _ _ _ _ s b)

/-- When every index word names a row of the table, the program's tables are admissible. -/
theorem ok_tbl (hin : Cert.NGram.InRange (m (((0 : Dev nD).tc : Thread nD τ).loc main_arg0))) : ok0 (F := F) (tbl m) :=
  ok0_of_bound (tbl m)
    (fun t => (tbl_0_apply m t).symm ▸ hin _)
    (fun t => (tbl_1_apply m t).symm ▸ hin _)
    (fun t => (tbl_2_apply m t).symm ▸ hin _)

end Cert.KernelIdeal.Hand

end
-- ==== Proof.KValue.lean ====
/-
  The pipelined kernel's result, read off its proof data.

  The grid has one axis of 65536 points; point t is token t. At point t the three input windows hold the rows of the
  50257 × 1 × 256 table that the three word tables name at t — an index map loads the word at offset t and returns it
  as the block row, and a block of shape 1 × 1 × 256 at block row r is row r of the table —, the body stores the sum
  (x₀ + x₁) + x₂ of the three rows over the whole output block, and the output window's block row is t. So what point
  t writes back is block t of ONE function of the result's index: at (q, ·, d) the sum of the table's entries in column
  d of the rows named at q. Every row of the result is the block of its own point and is written back there, so after
  the last point the result array holds that function. Admissible tables name rows below 50257 at every point (the
  pipeline's side condition: every block inside the table), so the total "row of a word" function of the
  specification agrees with the word's value there. Finally the host reshapes are read at explicit coordinates: the
  word tables are the three index planes flattened, the table of rows is the table with a unit middle axis, and the
  512 × 128 × 256 result is the kernel's output un-flattened.
-/
import proofs.«124249_j35588099015425_2_alg».proof.Proof.KBase
import proofs.«124249_j35588099015425_2_alg».proof.Proof.Spec
import proofs.«124249_j35588099015425_2_alg».proof.Proof.HostLayout
import Idealize.ShloMosaic.Lib.Pipeline.Value
import Idealize.ShloMosaic.Lib.ValueIdx

noncomputable section

namespace Cert.KernelIdeal.HandValue

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)

variable {F : FTy → Type} [FloatOps F]

/-- The grid has one axis: point t has coordinate t. -/
theorem coords_val (t : Fin grid0.N) : ((grid0.coords t) 0).val = t.val := by
  have hs : grid0.stride 0 = 1 := by decide
  have hN : grid0.N = 65536 := N_0
  have ht := t.isLt
  show t.val / grid0.stride 0 % 65536 = t.val
  rw [hs]; omega

/-- A grid point as a token number. -/
def tok (t : Fin grid0.N) : Fin 65536 := ⟨t.val, N_0 ▸ t.isLt⟩

/-- An index of a one-element vector has coordinate 0. -/
theorem idx_S1 (x : S1.Idx) : (x (0 : Fin 1)).val = 0 := by
  have := (x (0 : Fin 1)).isLt
  have e : S1.size (0 : Fin 1) = 1 := by decide
  omega

/-- The word an index map loads from table 0, 1, 2 at offset n. -/
theorem word0 (pf : pre0.Contents (Elt F)) (n : Fin 65536) (off : Fin 1 → Nat) (hoff : off 0 = n.val)
    (inb : ∀ a, off a + S1.size a ≤ S65536.size a) (h1 : S1.numel = 1) :
    pf.at 0 (Rect.unit (s := S65536) off S1.size inb) h1 = (pf 0 : S65536.Idx → BitVec 32) (ix1 n) := by
  refine congrArg (pf 0 : S65536.Idx → BitVec 32) (funext fun a => Fin.ext ?_)
  match a with
  | ⟨0, _⟩ =>
    show off 0 + 1 * ((Shape.Idx.first (s := S1) _ : S1.Idx) (0 : Fin 1)).val = n.val
    rw [idx_S1, hoff]; omega
theorem word1 (pf : pre0.Contents (Elt F)) (n : Fin 65536) (off : Fin 1 → Nat) (hoff : off 0 = n.val)
    (inb : ∀ a, off a + S1.size a ≤ S65536.size a) (h1 : S1.numel = 1) :
    pf.at 1 (Rect.unit (s := S65536) off S1.size inb) h1 = (pf 1 : S65536.Idx → BitVec 32) (ix1 n) := by
  refine congrArg (pf 1 : S65536.Idx → BitVec 32) (funext fun a => Fin.ext ?_)
  match a with
  | ⟨0, _⟩ =>
    show off 0 + 1 * ((Shape.Idx.first (s := S1) _ : S1.Idx) (0 : Fin 1)).val = n.val
    rw [idx_S1, hoff]; omega
theorem word2 (pf : pre0.Contents (Elt F)) (n : Fin 65536) (off : Fin 1 → Nat) (hoff : off 0 = n.val)
    (inb : ∀ a, off a + S1.size a ≤ S65536.size a) (h1 : S1.numel = 1) :
    pf.at 2 (Rect.unit (s := S65536) off S1.size inb) h1 = (pf 2 : S65536.Idx → BitVec 32) (ix1 n) := by
  refine congrArg (pf 2 : S65536.Idx → BitVec 32) (funext fun a => Fin.ext ?_)
  match a with
  | ⟨0, _⟩ =>
    show off 0 + 1 * ((Shape.Idx.first (s := S1) _ : S1.Idx) (0 : Fin 1)).val = n.val
    rw [idx_S1, hoff]; omega

/-- The offset the index maps load their word at, at point t, is t. -/
theorem off_val (t : Fin grid0.N) :
    (![(Scalar.indexCast (BitVec.ofNat 32 ((grid0.coords t) 0).val)).toNat] : Fin 1 → Nat) 0 = (tok t).val := by
  show (BitVec.ofNat 32 ((grid0.coords t) 0).val).toNat = t.val
  rw [coords_val, BitVec.toNat_ofNat]
  have := (tok t).isLt
  show t.val % 2 ^ 32 = t.val
  have : t.val < 65536 := (tok t).isLt
  omega

/-- The three input index maps at point t: the block row is the table's word at t. -/
theorem transform0_eq (pf : pre0.Contents (Elt F)) (t : Fin grid0.N) :
    cc0_transform_0 Facts₀.k0_off1_inb Facts₀.numel1_S1 pf (grid0.coords t)
      = ![((pf 0 : S65536.Idx → BitVec 32) (ix1 (tok t))).toNat, 0, 0] :=
  congrArg (fun w : BitVec 32 => (![w.toNat, 0, 0] : Fin 3 → Nat))
    (word0 pf (tok t) _ (off_val t) (Facts₀.k0_off1_inb (grid0.coords t)) Facts₀.numel1_S1)
theorem transform1_eq (pf : pre0.Contents (Elt F)) (t : Fin grid0.N) :
    cc0_transform_1 Facts₀.k0_off1_inb Facts₀.numel1_S1 pf (grid0.coords t)
      = ![((pf 1 : S65536.Idx → BitVec 32) (ix1 (tok t))).toNat, 0, 0] :=
  congrArg (fun w : BitVec 32 => (![w.toNat, 0, 0] : Fin 3 → Nat))
    (word1 pf (tok t) _ (off_val t) (Facts₀.k0_off1_inb (grid0.coords t)) Facts₀.numel1_S1)
theorem transform2_eq (pf : pre0.Contents (Elt F)) (t : Fin grid0.N) :
    cc0_transform_2 Facts₀.k0_off1_inb Facts₀.numel1_S1 pf (grid0.coords t)
      = ![((pf 2 : S65536.Idx → BitVec 32) (ix1 (tok t))).toNat, 0, 0] :=
  congrArg (fun w : BitVec 32 => (![w.toNat, 0, 0] : Fin 3 → Nat))
    (word2 pf (tok t) _ (off_val t) (Facts₀.k0_off1_inb (grid0.coords t)) Facts₀.numel1_S1)
theorem transform3_eq (t : Fin grid0.N) : cc0_transform_3 (grid0.coords t) = ![t.val, 0, 0] := by
  unfold cc0_transform_3
  dsimp only
  have h : (BitVec.ofNat 32 ((grid0.coords t) 0).val).toNat = t.val := by
    rw [coords_val, BitVec.toNat_ofNat]
    have : t.val < 65536 := (tok t).isLt
    show t.val % 2 ^ 32 = t.val
    omega
  rw [h]
  rfl

/-! ## The result as one function of the tables and the table of rows -/

/-- Row q of the result at column d: the three rows the words at q name, added left to right. -/
def Out (w0 w1 w2 : Fin 65536 → BitVec 32) (T : S50257x1x256.Idx → EReal) (q : Fin 65536) (d : Fin 256) : EReal :=
  (T (ix3 (Cert.NGram.row (w0 q)) (0 : Fin 1) d) + T (ix3 (Cert.NGram.row (w1 q)) (0 : Fin 1) d))
    + T (ix3 (Cert.NGram.row (w2 q)) (0 : Fin 1) d)

/-- The whole 65536 × 1 × 256 result. -/
def out3 (w0 w1 w2 : Fin 65536 → BitVec 32) (T : S50257x1x256.Idx → EReal) : S65536x1x256.Idx → EReal :=
  fun i => Out w0 w1 w2 T ⟨(i 0).val, (i 0).isLt⟩ ⟨(i 2).val, (i 2).isLt⟩

theorem out3_apply (w0 w1 w2 : Fin 65536 → BitVec 32) (T : S50257x1x256.Idx → EReal) (q : Fin 65536) (u : Fin 1) (d : Fin 256) :
    out3 w0 w1 w2 T (ix3 q u d) = Out w0 w1 w2 T q d := rfl

/-- The body's arithmetic at an index of the block: the three loaded rows added left to right. -/
theorem pay_apply (x0 x1 x2 : Vec Ideal S1x1x256 .f32) (y : S1x1x256.Idx) :
    k0_pay1 x0 x1 x2 y = (x0 y + x1 y) + x2 y := by
  unfold k0_pay1
  rw [shapeCast_self, shapeCast_self, shapeCast_self]
  rfl

section Ideal

variable (m : (ℓ : Loc nD τ sig) → Buf (Elt Ideal) ℓ) (ap : (pcfg0 (F := Ideal)).Adm) (c : Dev nD)

/-- The three word tables as functions of the token number. -/
abbrev tw0 : Fin 65536 → BitVec 32 := fun q => (ap.1 0 : S65536.Idx → BitVec 32) (ix1 q)
abbrev tw1 : Fin 65536 → BitVec 32 := fun q => (ap.1 1 : S65536.Idx → BitVec 32) (ix1 q)
abbrev tw2 : Fin 65536 → BitVec 32 := fun q => (ap.1 2 : S65536.Idx → BitVec 32) (ix1 q)

/-- The table of rows as the region finds it. -/
abbrev TT : S50257x1x256.Idx → EReal := V m c main_v7

theorem index0_eq (t : Fin (cfg0 ap).N) : ((cfg0 ap).win 0).index t = ![(tw0 ap (tok t)).toNat, 0, 0] := transform0_eq ap.1 t
theorem index1_eq (t : Fin (cfg0 ap).N) : ((cfg0 ap).win 1).index t = ![(tw1 ap (tok t)).toNat, 0, 0] := transform1_eq ap.1 t
theorem index2_eq (t : Fin (cfg0 ap).N) : ((cfg0 ap).win 2).index t = ![(tw2 ap (tok t)).toNat, 0, 0] := transform2_eq ap.1 t
theorem index3_eq (t : Fin (cfg0 ap).N) : ((cfg0 ap).win 3).index t = ![t.val, 0, 0] := transform3_eq t

/-- Admissible tables name rows of the table at every token. -/
theorem row0_lt (t : Fin (cfg0 ap).N) : (tw0 ap (tok t)).toNat < 50257 := by
  obtain ⟨h, -⟩ := ap.2.1 (grid0.coords t)
  have h0 := h 0
  rw [transform0_eq ap.1 t] at h0
  have : (((tw0 ap (tok t)).toNat + 1) * 1 ≤ 50257) := h0
  omega
theorem row1_lt (t : Fin (cfg0 ap).N) : (tw1 ap (tok t)).toNat < 50257 := by
  obtain ⟨h, -⟩ := ap.2.2.1 (grid0.coords t)
  have h0 := h 0
  rw [transform1_eq ap.1 t] at h0
  have : (((tw1 ap (tok t)).toNat + 1) * 1 ≤ 50257) := h0
  omega
theorem row2_lt (t : Fin (cfg0 ap).N) : (tw2 ap (tok t)).toNat < 50257 := by
  obtain ⟨h, -⟩ := ap.2.2.2 (grid0.coords t)
  have h0 := h 0
  rw [transform2_eq ap.1 t] at h0
  have : (((tw2 ap (tok t)).toNat + 1) * 1 ≤ 50257) := h0
  omega

theorem hz : (![0, 0, 0] : Fin 3 → Nat) = fun _ => 0 := funext fun a => by fin_cases a <;> rfl

/-- The one store over the whole block, of the payload of the three whole-block loads, leaves the payload. -/
theorem outv_eq (x0 x1 x2 : Vec Ideal S1x1x256 .f32) : outv x0 x1 x2 = k0_pay1 x0 x1 x2 := by
  unfold outv
  rw [View.canon_unit_zero hz, View.ld_unit_zero hz, View.ld_unit_zero hz, View.ld_unit_zero hz]

/-- A word below 50257 names the row equal to its value. -/
theorem row_eq (x : BitVec 32) (h : x.toNat < 50257) : Cert.NGram.row x = ⟨x.toNat, h⟩ := Fin.ext (Cert.NGram.row_val h)

/-- What point t writes back is block t of the result function. -/
theorem flushed_eq (t : Fin (cfg0 ap).N) :
    (dat m ap c).flushed 3 t
      = (((cfg0 ap).win 3).blk t).view.read (Elt Ideal) (out3 (tw0 ap) (tw1 ap) (tw2 ap) (TT m c)) := by
  show ((cfg0 ap).win 3).cut (grid0.coords t) ((dat m ap c).after 3 t) = _
  rw [after_3, outv_eq (iblk m ap c 0 t) (iblk m ap c 1 t) (iblk m ap c 2 t)]
  funext j
  refine (pay_apply (iblk m ap c 0 t) (iblk m ap c 1 t) (iblk m ap c 2 t) _).trans ?_
  have hj0 : (j (0 : Fin 3)).val < 1 := (j (0 : Fin 3)).isLt
  have hj1 : (j (1 : Fin 3)).val < 1 := (j (1 : Fin 3)).isLt
  have hj2 : (j (2 : Fin 3)).val < 256 := (j (2 : Fin 3)).isLt
  show (TT m c ((((cfg0 ap).win 0).blk t).view.emb j) + TT m c ((((cfg0 ap).win 1).blk t).view.emb j))
      + TT m c ((((cfg0 ap).win 2).blk t).view.emb j)
    = out3 (tw0 ap) (tw1 ap) (tw2 ap) (TT m c) ((((cfg0 ap).win 3).blk t).view.emb j)
  have h0 : (((cfg0 ap).win 0).blk t).view.emb j = ix3 (⟨(tw0 ap (tok t)).toNat, row0_lt ap t⟩ : Fin 50257) (0 : Fin 1) (⟨(j (2 : Fin 3)).val, hj2⟩ : Fin 256) := by
    have e := index0_eq ap t
    funext a; apply Fin.ext
    match a with
    | ⟨0, _⟩ => show ((cfg0 ap).win 0).index t (0 : Fin 3) * 1 + 1 * (j (0 : Fin 3)).val = (tw0 ap (tok t)).toNat; rw [e]; show (tw0 ap (tok t)).toNat * 1 + 1 * (j (0 : Fin 3)).val = _; omega
    | ⟨1, _⟩ => show ((cfg0 ap).win 0).index t (1 : Fin 3) * 1 + 1 * (j (1 : Fin 3)).val = 0; rw [e]; show 0 * 1 + 1 * (j (1 : Fin 3)).val = 0; omega
    | ⟨2, _⟩ => show ((cfg0 ap).win 0).index t (2 : Fin 3) * 256 + 1 * (j (2 : Fin 3)).val = (j (2 : Fin 3)).val; rw [e]; show 0 * 256 + 1 * (j (2 : Fin 3)).val = _; omega
  have h1 : (((cfg0 ap).win 1).blk t).view.emb j = ix3 (⟨(tw1 ap (tok t)).toNat, row1_lt ap t⟩ : Fin 50257) (0 : Fin 1) (⟨(j (2 : Fin 3)).val, hj2⟩ : Fin 256) := by
    have e := index1_eq ap t
    funext a; apply Fin.ext
    match a with
    | ⟨0, _⟩ => show ((cfg0 ap).win 1).index t (0 : Fin 3) * 1 + 1 * (j (0 : Fin 3)).val = (tw1 ap (tok t)).toNat; rw [e]; show (tw1 ap (tok t)).toNat * 1 + 1 * (j (0 : Fin 3)).val = _; omega
    | ⟨1, _⟩ => show ((cfg0 ap).win 1).index t (1 : Fin 3) * 1 + 1 * (j (1 : Fin 3)).val = 0; rw [e]; show 0 * 1 + 1 * (j (1 : Fin 3)).val = 0; omega
    | ⟨2, _⟩ => show ((cfg0 ap).win 1).index t (2 : Fin 3) * 256 + 1 * (j (2 : Fin 3)).val = (j (2 : Fin 3)).val; rw [e]; show 0 * 256 + 1 * (j (2 : Fin 3)).val = _; omega
  have h2 : (((cfg0 ap).win 2).blk t).view.emb j = ix3 (⟨(tw2 ap (tok t)).toNat, row2_lt ap t⟩ : Fin 50257) (0 : Fin 1) (⟨(j (2 : Fin 3)).val, hj2⟩ : Fin 256) := by
    have e := index2_eq ap t
    funext a; apply Fin.ext
    match a with
    | ⟨0, _⟩ => show ((cfg0 ap).win 2).index t (0 : Fin 3) * 1 + 1 * (j (0 : Fin 3)).val = (tw2 ap (tok t)).toNat; rw [e]; show (tw2 ap (tok t)).toNat * 1 + 1 * (j (0 : Fin 3)).val = _; omega
    | ⟨1, _⟩ => show ((cfg0 ap).win 2).index t (1 : Fin 3) * 1 + 1 * (j (1 : Fin 3)).val = 0; rw [e]; show 0 * 1 + 1 * (j (1 : Fin 3)).val = 0; omega
    | ⟨2, _⟩ => show ((cfg0 ap).win 2).index t (2 : Fin 3) * 256 + 1 * (j (2 : Fin 3)).val = (j (2 : Fin 3)).val; rw [e]; show 0 * 256 + 1 * (j (2 : Fin 3)).val = _; omega
  have h3 : (((cfg0 ap).win 3).blk t).view.emb j = ix3 (tok t) (0 : Fin 1) (⟨(j (2 : Fin 3)).val, hj2⟩ : Fin 256) := by
    have e := index3_eq ap t
    funext a; apply Fin.ext
    match a with
    | ⟨0, _⟩ => show ((cfg0 ap).win 3).index t (0 : Fin 3) * 1 + 1 * (j (0 : Fin 3)).val = t.val; rw [e]; show t.val * 1 + 1 * (j (0 : Fin 3)).val = _; omega
    | ⟨1, _⟩ => show ((cfg0 ap).win 3).index t (1 : Fin 3) * 1 + 1 * (j (1 : Fin 3)).val = 0; rw [e]; show 0 * 1 + 1 * (j (1 : Fin 3)).val = 0; omega
    | ⟨2, _⟩ => show ((cfg0 ap).win 3).index t (2 : Fin 3) * 256 + 1 * (j (2 : Fin 3)).val = (j (2 : Fin 3)).val; rw [e]; show 0 * 256 + 1 * (j (2 : Fin 3)).val = _; omega
  rw [h0, h1, h2, h3, out3_apply]
  unfold Out
  rw [row_eq _ (row0_lt ap t), row_eq _ (row1_lt ap t), row_eq _ (row2_lt ap t)]

/-- The output is written back at every point: its block row moves with the point. -/
theorem flush3 (t : Fin (cfg0 ap).N) : ((cfg0 ap).win 3).flush t = true := by
  unfold Pipeline.Window.flush
  have hout : ((cfg0 ap).win 3).isOut = true := rfl
  rw [hout, Bool.true_and, Bool.or_eq_true, decide_eq_true_eq, decide_eq_true_eq]
  by_cases h : t.val + 1 = (cfg0 ap).grid.N
  · exact Or.inl h
  · have hlt : t.val + 1 < (cfg0 ap).grid.N := by have ht : t.val < (cfg0 ap).grid.N := t.isLt; omega
    refine Or.inr ⟨hlt, fun e => ?_⟩
    have e0 := congrFun e (0 : Fin 3)
    rw [index3_eq ap ⟨t.val + 1, hlt⟩, index3_eq ap t] at e0
    have : t.val + 1 = t.val := e0
    omega

/-- An index of the result is in point t's block iff each coordinate is in the block's range on its axis. -/
theorem mem_blk (t : Fin (cfg0 ap).N) (i : S65536x1x256.Idx) :
    i ∈ (((cfg0 ap).win 3).blk t).view.set ↔ ∀ a : Fin 3, ((cfg0 ap).win 3).index t a * S1x1x256.size a ≤ (i a).val
      ∧ (i a).val < ((cfg0 ap).win 3).index t a * S1x1x256.size a + S1x1x256.size a := by
  have e : (((cfg0 ap).win 3).blk t).view.set = (((cfg0 ap).win 3).rect t).set :=
    View.set_slice_whole main_v8 (((cfg0 ap).win 3).rect t)
  exact (iff_of_eq (congrArg (fun S => i ∈ S) e)).trans Rect.mem_set_unit

/-- Row q of the result is in the block of point q. -/
theorem cover (i : S65536x1x256.Idx) :
    ∃ t : Fin (cfg0 ap).N, ((cfg0 ap).win 3).flush t = true ∧ i ∈ (((cfg0 ap).win 3).blk t).view.set := by
  have hi0 : (i 0).val < 65536 := (i 0).isLt
  have hi1 : (i 1).val < 1 := (i 1).isLt
  have hi2 : (i 2).val < 256 := (i 2).isLt
  have hN : (cfg0 ap).N = 65536 := N_0
  refine ⟨⟨(i 0).val, by rw [hN]; exact hi0⟩, flush3 ap _, ?_⟩
  rw [mem_blk, index3_eq]
  intro a
  match a with
  | ⟨0, _⟩ => show (i 0).val * 1 ≤ (i 0).val ∧ (i 0).val < (i 0).val * 1 + 1; omega
  | ⟨1, _⟩ => show 0 * 1 ≤ (i 1).val ∧ (i 1).val < 0 * 1 + 1; omega
  | ⟨2, _⟩ => show 0 * 256 ≤ (i 2).val ∧ (i 2).val < 0 * 256 + 256; omega

/-- The result array after the run is the result function. -/
theorem final : (dat m ap c).arrAt 3 (cfg0 ap).N = out3 (tw0 ap) (tw1 ap) (tw2 ap) (TT m c) :=
  (dat m ap c).arrAt_eq_of_cover 3 (out3 (tw0 ap) (tw1 ap) (tw2 ap) (TT m c)) (fun t _ => flushed_eq m ap c t) (cover ap)

end Ideal

/-! ## The host operations before the region, read -/

section Host

variable (m : (ℓ : Loc nD τ sig) → Buf (Elt Ideal) ℓ) (c : Dev nD)

/-- The table of rows is the table argument with a unit middle axis. -/
theorem V_main_v7 : (V m c main_v7 : S50257x1x256.Idx → EReal)
    = shapeCast S50257x1x256 (m ((c : Thread nD τ).loc main_arg1)) Facts₀.shapeCasts_S50257x256_S50257x1x256 := by
  dsimp only [Hand.V, hostOps0]
  after_results
  rfl

/-- The three word tables are the three index planes, flattened. -/
theorem V_main_v2 : (V m c main_v2 : S65536.Idx → BitVec 32)
    = shapeCast S65536 (extractStridedSlice S1x65536 ![0, 0] (shapeCast S3x65536 (m ((c : Thread nD τ).loc main_arg0)) Facts₀.shapeCasts_S3x512x128_S3x65536) Facts₀.slices_S3x65536_S1x65536_0_0) Facts₀.shapeCasts_S1x65536_S65536 := by
  dsimp only [Hand.V, hostOps0]
  after_results
  rfl
theorem V_main_v4 : (V m c main_v4 : S65536.Idx → BitVec 32)
    = shapeCast S65536 (extractStridedSlice S1x65536 ![1, 0] (shapeCast S3x65536 (m ((c : Thread nD τ).loc main_arg0)) Facts₀.shapeCasts_S3x512x128_S3x65536) Facts₀.slices_S3x65536_S1x65536_1_0) Facts₀.shapeCasts_S1x65536_S65536 := by
  dsimp only [Hand.V, hostOps0]
  after_results
  rfl
theorem V_main_v6 : (V m c main_v6 : S65536.Idx → BitVec 32)
    = shapeCast S65536 (extractStridedSlice S1x65536 ![2, 0] (shapeCast S3x65536 (m ((c : Thread nD τ).loc main_arg0)) Facts₀.shapeCasts_S3x512x128_S3x65536) Facts₀.slices_S3x65536_S1x65536_2_0) Facts₀.shapeCasts_S1x65536_S65536 := by
  dsimp only [Hand.V, hostOps0]
  after_results
  rfl

end Host

/-! ## The result at explicit coordinates -/

section Final

variable (m : (ℓ : Loc nD τ sig) → Buf (Elt Ideal) ℓ) (ap : (pcfg0 (F := Ideal)).Adm) (c : Dev nD)

/-- The table of rows at (r, ·, d) is the table argument at (r, d). -/
theorem TT_apply (r : Fin 50257) (u : Fin 1) (d : Fin 256) :
    TT m c (ix3 r u d) = m ((c : Thread nD τ).loc main_arg1) (ix2 r d) :=
  (congrFun (V_main_v7 m c) (ix3 r u d)).trans (Cert.HostLayout.table_unit_apply _ _ r u d)

/-- The word tables at the flat position of (s, b) are the index words at (0, s, b), (1, s, b), (2, s, b), when the
    tables held are the ones the host operations wrote. -/
theorem tw0_apply (h0 : (V m c main_v2 : S65536.Idx → BitVec 32) = ap.1 0) (s : Fin 512) (b : Fin 128) :
    tw0 ap (⟨s.val * 128 + b.val, by omega⟩ : Fin 65536) = m ((c : Thread nD τ).loc main_arg0) (ix3 (0 : Fin 3) s b) :=
  (congrFun h0.symm _).trans ((congrFun (V_main_v2 m c) _).trans (Cert.HostLayout.plane0_apply_sb _ _ _ _ s b))
theorem tw1_apply (h1 : (V m c main_v4 : S65536.Idx → BitVec 32) = ap.1 1) (s : Fin 512) (b : Fin 128) :
    tw1 ap (⟨s.val * 128 + b.val, by omega⟩ : Fin 65536) = m ((c : Thread nD τ).loc main_arg0) (ix3 (1 : Fin 3) s b) :=
  (congrFun h1.symm _).trans ((congrFun (V_main_v4 m c) _).trans (Cert.HostLayout.plane1_apply_sb _ _ _ _ s b))
theorem tw2_apply (h2 : (V m c main_v6 : S65536.Idx → BitVec 32) = ap.1 2) (s : Fin 512) (b : Fin 128) :
    tw2 ap (⟨s.val * 128 + b.val, by omega⟩ : Fin 65536) = m ((c : Thread nD τ).loc main_arg0) (ix3 (2 : Fin 3) s b) :=
  (congrFun h2.symm _).trans ((congrFun (V_main_v6 m c) _).trans (Cert.HostLayout.plane2_apply_sb _ _ _ _ s b))

/-- THE KERNEL'S RESULT at (s, b, d), after the two reshapes that follow the region, is the specification's. -/
theorem final_value (h0 : (V m c main_v2 : S65536.Idx → BitVec 32) = ap.1 0)
    (h1 : (V m c main_v4 : S65536.Idx → BitVec 32) = ap.1 1) (h2 : (V m c main_v6 : S65536.Idx → BitVec 32) = ap.1 2)
    (s : Fin 512) (b : Fin 128) (d : Fin 256) :
    shapeCast S512x128x256 (shapeCast S65536x256 ((dat m ap c).arrAt 3 (cfg0 ap).N) Facts₀.shapeCasts_S65536x1x256_S65536x256)
        Facts₀.shapeCasts_S65536x256_S512x128x256 (ix3 s b d)
      = Cert.NGram.Gat (m ((c : Thread nD τ).loc main_arg0)) (m ((c : Thread nD τ).loc main_arg1)) s b d := by
  refine (congrArg (fun o : S65536x1x256.Idx → EReal => shapeCast S512x128x256 (shapeCast S65536x256 o Facts₀.shapeCasts_S65536x1x256_S65536x256)
      Facts₀.shapeCasts_S65536x256_S512x128x256 (ix3 s b d)) (final m ap c)).trans ?_
  refine (Cert.HostLayout.unflatten_apply _ _ _ s b d).trans ?_
  rw [out3_apply]
  unfold Out Cert.NGram.Gat
  rw [tw0_apply m ap c h0 s b, tw1_apply m ap c h1 s b, tw2_apply m ap c h2 s b, TT_apply, TT_apply, TT_apply]

end Final

end Cert.KernelIdeal.HandValue

end
-- ==== Proof.BBase.lean ====
/-
  The pipelined kernel's proof data.

  The kernel runs one grid point per token t < 65536. Three input windows read ONE array — the table with a unit middle
  axis, 50257 × 1 × 256 — each at the row its own prefetched index table names at t; the output window is row t of the
  65536 × 1 × 256 result. At a point the body loads the three staged rows x₀, x₁, x₂ and stores (x₀ + x₁) + x₂ over the whole
  output block. Between points nothing is kept but the tables themselves (held for the index maps) and the scoped buffers
  no window stages.

  The data below are stated at ANY admissible contents `ap` of the three tables, kept a variable: which contents the
  region meets is decided last, from the program's precondition.
-/
import proofs.«124249_j35588099015425_2_alg».proof.Proof.Gen.Kernel.Launch
import proofs.«124249_j35588099015425_2_alg».proof.Proof.Gen.Kernel.Skeleton
import Idealize.ShloMosaic.Lib.Pipeline.Regions
import Idealize.ShloMosaic.Lib.Pipeline.FrameBody
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- Core `c`'s buffers at launch, as a valuation; -/
abbrev V₀ (c : Dev nD) : Valuation τ sig (Elt F) := fun b => m ((c : Dev nD), b)
/-- and when the region is entered: the eight host operations before it have run. -/
abbrev V (c : Dev nD) (b : Ref sig .tc) : Buf (Elt F) ((c : Thread nD τ).loc b) := StableHlo.after hostOps0 (V₀ m c) b

variable (ap : (pcfg0 (F := F)).Adm)

/-- Window `w`'s block at point `t`, read off its array as the region finds it. -/
def iblk (c : Dev nD) (w : Fin (cfg0 ap).W) (t : Fin (cfg0 ap).N) :
    (((cfg0 ap).win w).xblock ((cfg0 ap).grid.coords t)).Idx → Elt F ((cfg0 ap).win w).elt :=
  (((cfg0 ap).win w).blk t).view.read (Elt F) (V m c (Pipeline.arrRef spec0 w))

/-- The rectangle of the body's one store and of its loads: the whole 1 × 1 × 256 staging block. -/
abbrev r0 : Rect S1x1x256 := Rect.unit (s := S1x1x256) ![0, 0, 0] S1x1x256.size inb_S1x1x256_S1x1x256_0_0_0

/-- What the body leaves in the output's staging buffer, from the three input blocks: its one store read back. -/
def outv (x0 x1 x2 : Vec F S1x1x256 .f32) : Vec F S1x1x256 .f32 :=
  View.canon [⟨r0, k0_pay1 (View.ld x0 r0) (View.ld x1 r0) (View.ld x2 r0)⟩]

/-- The one store covers the block. -/
theorem cover_out (p0 : Vec F S1x1x256 .f32) (y : S1x1x256.Idx) :
    ∃ pc ∈ ([⟨r0, p0⟩] : List (View.Piece (Elt F) S1x1x256 .f32)), y ∈ pc.1.set :=
  View.cover_of_tiled [⟨r0, p0⟩] S1x1x256.size (by rfl) y

/-- The invariant between points: the three tables, whole, at the admissible contents, and the scoped buffers no window
    stages. -/
def Φc (c : Dev nD) : sProp 𝕄 :=
  iprop(Pipeline.prefHeld (Ix := Unit) (Name := ℕ) (U := UR sig nD τ) (Lvl := ℕ) pre0 c (fun _ => fullShare) ap.1
    ∗ Pipeline.scopedRest (Ix := Unit) (Name := ℕ) (U := UR sig nD τ) (Lvl := ℕ) (Val := Elt F) spec0 c)

/-- The proof data on core `c`: the arrays as the region finds them; after the body each input's buffer at its block and
    the output's at the sum of the three; the table's one points-to divided among its three readers. -/
def dat (c : Dev nD) : Dat τ (Elt F) Unit ℕ (UR sig nD τ) ℕ (cfg0 ap) c where
  A w := V m c (Pipeline.arrRef spec0 w)
  after w t := match w with
    | ⟨0, _⟩ => iblk m ap c 0 t
    | ⟨1, _⟩ => iblk m ap c 1 t
    | ⟨2, _⟩ => iblk m ap c 2 t
    | ⟨3, _⟩ => outv (iblk m ap c 0 t) (iblk m ap c 1 t) (iblk m ap c 2 t)
  Φ _ := Φc ap c
  q w := match w with
    | ⟨0, _⟩ => fullShare.left
    | ⟨1, _⟩ => fullShare.right.left
    | ⟨2, _⟩ => fullShare.right.right
    | ⟨3, _⟩ => fullShare
  owed _ := 0

theorem A_eq (c : Dev nD) (w : Fin (cfg0 ap).W) : (dat m ap c).A w = V m c (Pipeline.arrRef spec0 w) := by
  dsimp only [dat]

theorem after_0 (c : Dev nD) (t : Fin (cfg0 ap).N) : (dat m ap c).after 0 t = iblk m ap c 0 t := by dsimp only [dat]; rfl
theorem after_1 (c : Dev nD) (t : Fin (cfg0 ap).N) : (dat m ap c).after 1 t = iblk m ap c 1 t := by dsimp only [dat]; rfl
theorem after_2 (c : Dev nD) (t : Fin (cfg0 ap).N) : (dat m ap c).after 2 t = iblk m ap c 2 t := by dsimp only [dat]; rfl
theorem after_3 (c : Dev nD) (t : Fin (cfg0 ap).N) :
    (dat m ap c).after 3 t = outv (iblk m ap c 0 t) (iblk m ap c 1 t) (iblk m ap c 2 t) := by dsimp only [dat]; rfl

end Cert.Kernel.Hand

end
-- ==== Proof.BBody.lean ====
/-
  The kernel body's obligation.

  At a grid point the body is handed four whole 1 × 1 × 256 staging blocks: the three table rows x₀, x₁, x₂ the
  point's index words name, and the output block at whatever it then holds. It loads the three rows (and the
  output block, whose value it does not use) and stores (x₀ + x₁) + x₂ over the whole output block; it touches
  nothing else: not the three index tables it is also passed, not the invariant, not what the core owes. So it
  returns the three inputs as they were and the output at the one store read back.

  An input window's current buffer holds its block at every point, fetched there or not: an unfetched input has
  not moved its block index, and the body left the block in place.
-/
import proofs.«124249_j35588099015425_2_alg».proof.Proof.BBase

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's triple -/

set_option maxHeartbeats 1000000 in
/-- The body on whole staging blocks, the three inputs at x₀, x₁, x₂ and the output at anything, runs to the
    continuation holding the inputs as they were and the output at the store of (x₀ + x₁) + x₂ read back. The three
    index tables it is passed are never accessed. -/
theorem sound_kernel (c : Dev nD) (E : Set ℕ) (i : grid0.Coords)
    (arg1 : Memref sig .tc .smem S65536 .i32) (harg1 : arg1.IsWhole) (arg2 : Memref sig .tc .smem S65536 .i32) (harg2 : arg2.IsWhole)
    (arg3 : Memref sig .tc .smem S65536 .i32) (harg3 : arg3.IsWhole)
    (arg4 : Memref sig .tc .vmem S1x1x256 .f32) (harg4 : arg4.IsWhole) (arg5 : Memref sig .tc .vmem S1x1x256 .f32) (harg5 : arg5.IsWhole)
    (arg6 : Memref sig .tc .vmem S1x1x256 .f32) (harg6 : arg6.IsWhole) (arg7 : Memref sig .tc .vmem S1x1x256 .f32) (harg7 : arg7.IsWhole)
    (x0 x1 x2 : Vec F S1x1x256 .f32) (K : PUnit → sProp 𝕄) :
    iprop(owns (c : Thread nD τ) arg4 fullShare x0 ∗ owns (c : Thread nD τ) arg5 fullShare x1 ∗ owns (c : Thread nD τ) arg6 fullShare x2
        ∗ (∃ d, owns (c : Thread nD τ) arg7 fullShare d)
        ∗ (iprop(owns (c : Thread nD τ) arg4 fullShare x0 ∗ owns (c : Thread nD τ) arg5 fullShare x1 ∗ owns (c : Thread nD τ) arg6 fullShare x2
            ∗ owns (c : Thread nD τ) arg7 fullShare (outv x0 x1 x2)) -∗ K ⟨⟩))
      ⊢ wp frame (wpE (defs₀ (F := F)) Variants.none c none) E
          (cc0__ngram_sum_kernel i arg1 harg1 arg2 harg2 arg3 harg3 arg4 harg4 arg5 harg5 arg6 harg6 arg7 harg7) K := by
  simp only [cc0__ngram_sum_kernel_eq_skeleton]; unfold cc0__ngram_sum_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover_out _)

variable (m : (ℓ : Loc nD τ sig) → Buf (Elt F) ℓ) (ap : (pcfg0 (F := F)).Adm)

/-! ## What an input's current buffer holds -/

/-- Window 0's current buffer holds its block at every point, fetched there or not. -/
theorem before_0 (c : Dev nD) (t : Fin (cfg0 ap).N) (d) : (dat m ap c).before 0 t d = iblk m ap c 0 t :=
  ((dat m ap c).before_in_eq_fetched 0 rfl (fun _ => rfl) (fun _ _ _ => rfl)
      (fun t => by rw [after_0]; unfold Dat.blockOf iblk; rw [A_eq]; try rfl) t d).trans
    (by unfold Dat.fetched Dat.blockOf iblk; rw [A_eq]; try rfl)

/-- Window 1's current buffer holds its block at every point, fetched there or not. -/
theorem before_1 (c : Dev nD) (t : Fin (cfg0 ap).N) (d) : (dat m ap c).before 1 t d = iblk m ap c 1 t :=
  ((dat m ap c).before_in_eq_fetched 1 rfl (fun _ => rfl) (fun _ _ _ => rfl)
      (fun t => by rw [after_1]; unfold Dat.blockOf iblk; rw [A_eq]; try rfl) t d).trans
    (by unfold Dat.fetched Dat.blockOf iblk; rw [A_eq]; try rfl)

/-- Window 2's current buffer holds its block at every point, fetched there or not. -/
theorem before_2 (c : Dev nD) (t : Fin (cfg0 ap).N) (d) : (dat m ap c).before 2 t d = iblk m ap c 2 t :=
  ((dat m ap c).before_in_eq_fetched 2 rfl (fun _ => rfl) (fun _ _ _ => rfl)
      (fun t => by rw [after_2]; unfold Dat.blockOf iblk; rw [A_eq]; try rfl) t d).trans
    (by unfold Dat.fetched Dat.blockOf iblk; rw [A_eq]; try rfl)

/-! ## The body at a point -/

/-- The current staging memref of each window at point `t`: which of its buffers it is on. -/
abbrev st0 (t : Fin (cfg0 ap).N) := ((cfg0 ap).win 0).stage ((cfg0 ap).slots t 0)
abbrev st1 (t : Fin (cfg0 ap).N) := ((cfg0 ap).win 1).stage ((cfg0 ap).slots t 1)
abbrev st2 (t : Fin (cfg0 ap).N) := ((cfg0 ap).win 2).stage ((cfg0 ap).slots t 2)
abbrev st3 (t : Fin (cfg0 ap).N) := ((cfg0 ap).win 3).stage ((cfg0 ap).slots t 3)

/-- The body at point `t`, on what the pipeline calls it with: the point's coordinates, the three index tables
    whole, and each window's current staging buffer. -/
abbrev bodyAt (t : Fin (cfg0 ap).N) : Prog (TpuEff nD τ sig (Elt F) Λ₀ .tc) PUnit :=
  cc0__ngram_sum_kernel (grid0.coords t) (Memref.whole main_v2) (Memref.isWhole_whole _) (Memref.whole main_v4) (Memref.isWhole_whole _)
    (Memref.whole main_v6) (Memref.isWhole_whole _)
    (spec0_0.stage ((cfg0 ap).slots t 0)) (Facts₀.hstage0_0 (((cfg0 ap).slots t 0).cast Facts₀.nbuf0_0))
    (spec0_1.stage ((cfg0 ap).slots t 1)) (Facts₀.hstage0_1 (((cfg0 ap).slots t 1).cast Facts₀.nbuf0_1))
    (spec0_2.stage ((cfg0 ap).slots t 2)) (Facts₀.hstage0_2 (((cfg0 ap).slots t 2).cast Facts₀.nbuf0_2))
    (spec0_3.stage ((cfg0 ap).slots t 3)) (Facts₀.hstage0_3 (((cfg0 ap).slots t 3).cast Facts₀.nbuf0_3))

/-! ## The body obligation, at a generic point -/

/-- What the body is called with at point `t`, the windows one by one, -/
def bodyPre (c : Dev nD) (t : Fin (cfg0 ap).N) : sProp 𝕄 :=
  iprop((dat m ap c).Φ t.castSucc ∗ (dat m ap c).owesAt () t.castSucc
    ∗ (∃ d, owns (c : Thread nD τ) (st0 ap t) fullShare ((dat m ap c).before 0 t d))
    ∗ (∃ d, owns (c : Thread nD τ) (st1 ap t) fullShare ((dat m ap c).before 1 t d))
    ∗ (∃ d, owns (c : Thread nD τ) (st2 ap t) fullShare ((dat m ap c).before 2 t d))
    ∗ (∃ d, owns (c : Thread nD τ) (st3 ap t) fullShare ((dat m ap c).before 3 t d)))

/-- and what it returns. -/
def bodyPost (c : Dev nD) (t : Fin (cfg0 ap).N) : sProp 𝕄 :=
  iprop((dat m ap c).Φ t.succ ∗ (dat m ap c).owesAt () t.succ
    ∗ owns (c : Thread nD τ) (st0 ap t) fullShare ((dat m ap c).after 0 t)
    ∗ owns (c : Thread nD τ) (st1 ap t) fullShare ((dat m ap c).after 1 t)
    ∗ owns (c : Thread nD τ) (st2 ap t) fullShare ((dat m ap c).after 2 t)
    ∗ owns (c : Thread nD τ) (st3 ap t) fullShare ((dat m ap c).after 3 t))

/-- The body at any point: the inputs' buffers hold their blocks, so the body's triple applies; the invariant and what
    the core owes pass through unread. -/
theorem sound_body (c : Dev nD) (t : Fin (cfg0 ap).N) :
    bodyPre m ap c t ⊢ wp frame (wpE (defs₀ (F := F)) Variants.none c none) Set.univ (bodyAt ap t) (fun _ => bodyPost m ap c t) := by
  unfold bodyPre bodyPost bodyAt
  simp only [before_0, before_1, before_2]
  rw [show (dat m ap c).Φ t.succ = (dat m ap c).Φ t.castSucc from rfl,
    show (dat m ap c).owesAt () t.succ = (dat m ap c).owesAt () t.castSucc from rfl,
    after_0, after_1, after_2, after_3]
  iintro ⟨HΦ, Ho, ⟨%d0, H0⟩, ⟨%d1, H1⟩, ⟨%d2, H2⟩, ⟨%d3, H3⟩⟩
  iapply (sound_kernel c Set.univ _ _ _ _ _ _ _ _ _ _ _ _ _ _ _ (iblk m ap c 0 t) (iblk m ap c 1 t) (iblk m ap c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation (c : Dev nD) : BodyObligation (dat (F := F) m ap c) (defs₀ (F := F)) Variants.none () Set.univ := fun t => by
  rw [bigSep_W0, bigSep_W0]
  exact sound_body m ap c t

end Cert.Kernel.Hand

end
-- ==== Proof.BRun.lean ====
/-
  The kernel's run: the eight host operations, the pipelined region, the two host operations after it.

  @main is a line of reshapes and slices that makes the three index tables and the table with a unit middle axis, then the
  region, then two reshapes of the region's result. The run is stated at any admissible contents `ap` of the tables that
  the host operations have in fact produced (`hpf`). Entering the region, the table array's one points-to is divided in
  three among the windows that read it; leaving it, the three parts are joined again. Every weakly fair execution
  terminates, and at the end the two argument arrays hold what they held and the result holds the two reshapes of what the
  region's write-backs assembled.
-/
import proofs.«124249_j35588099015425_2_alg».proof.Proof.BBase

set_option pp.maxSteps 20000
set_option pp.deepTerms false

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
variable (ap : (pcfg0 (F := F)).Adm)

abbrev EP : Emb (UR sig nD τ) (MT nD τ sig Unit (Elt F) ℕ (UR sig nD τ) ℕ) := emb₁
abbrev 𝒱₀ : Variants := Variants.none
abbrev L : GSem nD τ sig → Finset Unit := fun _ => ∅
abbrev lv : GSem nD τ sig → Unit → ℕ := fun _ _ => 0

/-- The one pipeline's tables, the same on every core. -/
abbrev adm : (p : Fin 1) → (pcfgs (F := F) p).Adm := fun _ => ap

/-- The proof data, as the library's family indexed by pipeline: here there is one. -/
abbrev dats (p : Fin 1) (c : Dev nD) : Dat τ (Elt F) Unit ℕ (UR sig nD τ) ℕ (Pipeline.pin (pcfgs (F := F)) (adm ap) p) c := dat m ap c

/-- What rides beside the buffers through the host operations: the core owing nothing. -/
abbrev R (c : Dev nD) : sProp 𝕄 := iprop(∃ W, owes (c : Thread nD τ) (0 : CellTallies nD τ sig Unit) W)

/-- The unscoped buffers, listed. -/
theorem unscopedBufs_list (c : Dev nD) (W : (b : Ref sig .tc) → Buf (Elt F) ((c : Thread nD τ).loc b)) :
    (unscopedBufs c W : sProp 𝕄) = iprop(
      (((c : Thread nD τ).loc main_arg0) ↦{fullShare} W main_arg0) ∗ (((c : Thread nD τ).loc main_arg1) ↦{fullShare} W main_arg1)
      ∗ (((c : Thread nD τ).loc main_v0) ↦{fullShare} W main_v0) ∗ (((c : Thread nD τ).loc main_v1) ↦{fullShare} W main_v1)
      ∗ (((c : Thread nD τ).loc main_v3) ↦{fullShare} W main_v3) ∗ (((c : Thread nD τ).loc main_v5) ↦{fullShare} W main_v5)
      ∗ (((c : Thread nD τ).loc main_v7) ↦{fullShare} W main_v7) ∗ (((c : Thread nD τ).loc main_v8) ↦{fullShare} W main_v8)
      ∗ (((c : Thread nD τ).loc main_v9) ↦{fullShare} W main_v9) ∗ (((c : Thread nD τ).loc main_v10) ↦{fullShare} W main_v10)
      ∗ (((c : Thread nD τ).loc main_v2) ↦{fullShare} W main_v2) ∗ (((c : Thread nD τ).loc main_v4) ↦{fullShare} W main_v4)
      ∗ (((c : Thread nD τ).loc main_v6) ↦{fullShare} W main_v6)) := by
  unfold unscopedBufs
  exact bigSep_eq_bigSepL_of_eq [main_arg0, main_arg1, main_v0, main_v1, main_v3, main_v5, main_v7, main_v8, main_v9, main_v10, main_v2, main_v4, main_v6]
    (by decide) (by decide) _

set_option backward.isDefEq.respectTransparency.types false in
/-- The pipeline's arrays, window by window: the table at its three parts, the result whole. -/
theorem arrays_list (c : Dev nD) (Fm : (w : Fin (cfg0 ap).W) → Buf (Elt F) (((cfg0 ap).win w).arr.view.loc (c : Thread nD τ))) :
    ((dat m ap c).arrays Fm : sProp 𝕄) = iprop(
      ((((cfg0 ap).win (0 : Fin 4)).arr.view.loc (c : Thread nD τ)) ↦{fullShare.left} Fm (0 : Fin 4)) ∗ ((((cfg0 ap).win (1 : Fin 4)).arr.view.loc (c : Thread nD τ)) ↦{fullShare.right.left} Fm (1 : Fin 4))
      ∗ ((((cfg0 ap).win (2 : Fin 4)).arr.view.loc (c : Thread nD τ)) ↦{fullShare.right.right} Fm (2 : Fin 4)) ∗ ((((cfg0 ap).win (3 : Fin 4)).arr.view.loc (c : Thread nD τ)) ↦{fullShare} Fm (3 : Fin 4))) := by
  unfold Dat.arrays
  rw [bigSep_W0]
  have hs0 : ((cfg0 ap).win (0 : Fin 4)).arr.view.set = Finset.univ := (arr_whole0 0).set_eq_univ
  have hs1 : ((cfg0 ap).win (1 : Fin 4)).arr.view.set = Finset.univ := (arr_whole0 1).set_eq_univ
  have hs2 : ((cfg0 ap).win (2 : Fin 4)).arr.view.set = Finset.univ := (arr_whole0 2).set_eq_univ
  have hs3 : ((cfg0 ap).win (3 : Fin 4)).arr.view.set = Finset.univ := (arr_whole0 3).set_eq_univ
  have q0 : (dat m ap c).share (0 : Fin 4) = fullShare.left := rfl
  have q1 : (dat m ap c).share (1 : Fin 4) = fullShare.right.left := rfl
  have q2 : (dat m ap c).share (2 : Fin 4) = fullShare.right.right := rfl
  have q3 : (dat m ap c).share (3 : Fin 4) = fullShare := rfl
  rw [hs0, hs3, q0, q1, q2, q3]

/-- The three tables, listed. -/
theorem prefHeld_list (c : Dev nD) (q : PosShare TreeShare) (T : pre0.Contents (Elt F)) :
    (Pipeline.prefHeld (Ix := Unit) (Name := ℕ) (U := UR sig nD τ) (Lvl := ℕ) pre0 c (fun _ => q) T : sProp 𝕄) = iprop(
      (((c : Thread nD τ).loc main_v2) ↦{q} T 0) ∗ (((c : Thread nD τ).loc main_v4) ↦{q} T 1) ∗ (((c : Thread nD τ).loc main_v6) ↦{q} T 2)) := by
  unfold Pipeline.prefHeld
  exact bigSep_univ_eq_bigSepL [(0 : Fin 3), 1, 2] (by decide) (by decide) _

/-! ## The segments -/

/-- The two argument arrays reach the region, and the end, as launched: no host operation before the region writes them. -/
theorem V_arg0 (c : Dev nD) : V m c main_arg0 = m ((c : Thread nD τ).loc main_arg0) := by
  show StableHlo.after hostOps0 (V₀ m c) (Proc.devRef .tc main_arg0) = _
  after_results
theorem V_arg1 (c : Dev nD) : V m c main_arg1 = m ((c : Thread nD τ).loc main_arg1) := by
  show StableHlo.after hostOps0 (V₀ m c) (Proc.devRef .tc main_arg1) = _
  after_results

/-- THE HOST OPERATIONS BEFORE THE REGION, over the unscoped buffers. -/
def seg0 : Pipeline.HostSeg (Name := ℕ) (U := UR sig nD τ) (pcfgs (F := F)) defs₀ 𝒱₀ L lv :=
  Pipeline.HostSeg.ofOps _ _ _ _ _ (Pipeline.ucRefs τ sig) hostOps0
    (fun op h => Pipeline.sub_ucRefs op ((List.forall_iff_forall_mem.mp hostOps0_sub) op h))
    (by intro _ h; (repeat (cases h with | head => rfl | tail _ h => ?_)); exact nomatch h) (V₀ m) R

/-- The buffers the two host operations after the region run within: the region's result and its two reshapes. -/
abbrev tailRefs3 : List (DevRef τ sig) := [(main_v8 : DevRef τ sig), (main_v9 : DevRef τ sig), (main_v10 : DevRef τ sig)]

/-- Core `c`'s buffers when the region is left: the result array as the write-backs assembled it, every other as it was. -/
def V1 (c : Dev nD) : Valuation τ sig (Elt F) :=
  Function.update (StableHlo.after hostOps0 (V₀ m c)) (main_v8 : DevRef τ sig) ((dat m ap c).arrAt 3 (cfg0 ap).N)

theorem V1_v8 (c : Dev nD) : V1 m ap c (main_v8 : DevRef τ sig) = (dat m ap c).arrAt 3 (cfg0 ap).N := by
  unfold V1; exact Function.update_self _ _ _
theorem V1_v9 (c : Dev nD) : V1 m ap c (main_v9 : DevRef τ sig) = V m c main_v9 := by
  unfold V1; exact Function.update_of_ne (by decide) _ _
theorem V1_v10 (c : Dev nD) : V1 m ap c (main_v10 : DevRef τ sig) = V m c main_v10 := by
  unfold V1; exact Function.update_of_ne (by decide) _ _

/-- Those three buffers held at a valuation, one by one. -/
theorem held3 (c : Dev nD) (W : Valuation τ sig (Elt F)) :
    (StableHlo.held (c : Thread nD τ) (tailRefs3).toFinset W : sProp 𝕄) = iprop(
      (((c : Thread nD τ).loc main_v8) ↦{fullShare} W (main_v8 : DevRef τ sig)) ∗ (((c : Thread nD τ).loc main_v9) ↦{fullShare} W (main_v9 : DevRef τ sig))
      ∗ (((c : Thread nD τ).loc main_v10) ↦{fullShare} W (main_v10 : DevRef τ sig))) := by
  unfold StableHlo.held
  exact bigSep_eq_bigSepL tailRefs3 (by decide) _

/-- What bypasses the region and is read at the end: the two argument arrays. -/
abbrev Keep (c : Dev nD) : sProp 𝕄 :=
  iprop((((c : Thread nD τ).loc main_arg0) ↦{fullShare} V m c main_arg0) ∗ (((c : Thread nD τ).loc main_arg1) ↦{fullShare} V m c main_arg1))

/-- THE HOST OPERATIONS AFTER THE REGION, over the result and its two reshapes. -/
def seg1 : Pipeline.HostSeg (Name := ℕ) (U := UR sig nD τ) (pcfgs (F := F)) defs₀ 𝒱₀ L lv :=
  Pipeline.HostSeg.ofOps _ _ _ _ _ (tailRefs3).toFinset hostOps1
    (by
      intro op h; simp only [List.mem_cons, List.mem_nil_iff, or_false] at h
      rcases h with rfl | rfl
      · show ({(main_v8 : DevRef τ sig), (main_v9 : DevRef τ sig)} : Finset (DevRef τ sig)) ⊆ _
        decide
      · show ({(main_v9 : DevRef τ sig), (main_v10 : DevRef τ sig)} : Finset (DevRef τ sig)) ⊆ _
        decide)
    (by intro _ h; (repeat (cases h with | head => rfl | tail _ h => ?_)); exact nomatch h) (V1 m ap) (fun c => iprop(Keep m c ∗ R c))

-- `iapply` of a lemma stated over the pinned configuration unifies only when unification may unfold plain definitions in a
-- metavariable's type
set_option backward.isDefEq.respectTransparency.types false in
/-- THE REGION: entered from what the first host segment left — the table's points-to divided among its three windows, the
    result's buffer whole, the three tables into the invariant, the argument arrays and the tail's two buffers bypassing —
    and left with the result at what the write-backs assembled. -/
def reg0 (hbody : ∀ c, BodyObligation (dat (F := F) m ap c) (defs₀ (F := F)) Variants.none () Set.univ)
    (hpf : ∀ c, V m c main_v2 = ap.1 0 ∧ V m c main_v4 = ap.1 1 ∧ V m c main_v6 = ap.1 2) :
    Pipeline.RegionSeg (pcfgs (F := F)) (adm ap) (dats m ap) () defs₀ 𝒱₀ L lv 0 where
  win := winFacts₀0
  block_pos := block_pos0
  stage_whole := stage_whole0
  K := PEmpty
  osem := fun k => k.elim
  ho := Pipeline.OwnSemFacts.none _
  hbody c := (hbody c).loose
  hwaits := Pipeline.hwaits_of_owed_zero _ _ _ _ L lv 0 fun _ _ => rfl
  pre c := iprop(StableHlo.held (c : Thread nD τ) (Pipeline.ucRefs τ sig) (StableHlo.after hostOps0 (V₀ m c)) ∗ R c)
  post c := iprop(StableHlo.held (c : Thread nD τ) (tailRefs3).toFinset (V1 m ap c) ∗ (Keep m c ∗ R c))
  X c := iprop(emp)
  Y c := iprop(emp)
  Z c := iprop(Keep m c ∗ (((c : Thread nD τ).loc main_v9) ↦{fullShare} V m c main_v9) ∗ (((c : Thread nD τ).loc main_v10) ↦{fullShare} V m c main_v10))
  hentry c := by
    rw [show StableHlo.held (c : Thread nD τ) (Pipeline.ucRefs τ sig) (StableHlo.after hostOps0 (V₀ m c)) = unscopedBufs c (V m c) from (Pipeline.unscopedBufs_held c _).symm,
      unscopedBufs_list, arrays_list, prefHeld_list, ← (hpf c).1, ← (hpf c).2.1, ← (hpf c).2.2]
    iintro ⟨⟨⟨Ha0, Ha1, -, -, -, -, H7, H8, H9, H10, H2, H4, H6⟩, HO⟩, -, -⟩
    ihave H7s := (pointsTo_share (PosShare.mem_left_op_right fullShare)).1 $$ H7
    icases H7s with ⟨H7l, H7r⟩
    ihave H7rs := (pointsTo_share (PosShare.mem_left_op_right fullShare.right)).1 $$ H7r
    icases H7rs with ⟨H7rl, H7rr⟩
    imodintro
    isplitl [H7l H7rl H7rr H8]
    · isplitl [H7l]; · iexact H7l
      isplitl [H7rl]; · iexact H7rl
      isplitl [H7rr]; · iexact H7rr
      iexact H8
    isplitl [H2 H4 H6]
    · isplitl [H2]; · iexact H2
      isplitl [H4]; · iexact H4
      iexact H6
    isplitl [HO]
    · unfold Pipeline.Dat.owesAt Pipeline.owesWithin
      icases HO with ⟨%W, HO⟩; iexists W; isplitr; · ipureintro; exact fun _ _ => Or.inl trivial
      iexact HO
    isplitr; · iempintro
    isplitl [Ha0 Ha1]
    · isplitl [Ha0]; · iexact Ha0
      iexact Ha1
    isplitl [H9]; · iexact H9
    iexact H10
  hin c := by
    rw [show (dats m ap 0 c).Φ 0 = Φc ap c from rfl]; unfold Φc
    iintro ⟨-, Hp, Hr⟩
    isplitl [Hp] <;> iassumption
  hout c := by
    rw [Pipeline.ownSems0_none, show (dats m ap 0 c).Φ (Fin.last _) = Φc ap c from rfl]; unfold Φc
    iintro ⟨-, Hr⟩
    isplitr; · iempintro
    isplitr; · iempintro
    iexact Hr
  hexit c := by
    rw [arrays_list, held3, V1_v8, V1_v9, V1_v10]
    iintro ⟨⟨-, -, -, H8⟩, HO, -, ⟨HK, H9, H10⟩⟩
    imodintro
    isplitl [H8 H9 H10]
    · isplitl [H8]; · iexact H8
      isplitl [H9]; · iexact H9
      iexact H10
    isplitl [HK]; · iexact HK
    unfold Pipeline.Dat.owesAt Pipeline.owesWithin
    icases HO with ⟨%W, -, HO⟩; iexists W; iexact HO

/-! ## The run -/

/-- @main as the list of the three. -/
abbrev segs (hbody : ∀ c, BodyObligation (dat (F := F) m ap c) (defs₀ (F := F)) Variants.none () Set.univ)
    (hpf : ∀ c, V m c main_v2 = ap.1 0 ∧ V m c main_v4 = ap.1 1 ∧ V m c main_v6 = ap.1 2) :
    List (Pipeline.Seg (pcfgs (F := F)) (adm ap) (dats m ap) () defs₀ 𝒱₀ L lv) :=
  [.host (seg0 m), .region (reg0 m ap hbody hpf), .host (seg1 m ap)]

/-- The launch element: the pipeline library's at the staging cells. -/
def u₀ : UR sig nD τ :=
  initOf (Pipeline.cells (Pipeline.pin (pcfgs (F := F)) (adm ap)) (cellOf_inj (adm ap))) (Pipeline.launchToks (Pipeline.pin (pcfgs (F := F)) (adm ap)) (cellOf_inj (adm ap)))

/-- The result at the end: the two reshapes after the region applied to what the region left. -/
def outF (c : Dev nD) : Buf (Elt F) ((c : Thread nD τ).loc main_v10) := StableHlo.after hostOps1 (V1 m ap c) (main_v10 : DevRef τ sig)

/-- The physical post: the result at `outF`, the two argument arrays as launched. -/
def QC : PUnit × MemSt nD τ sig (Elt F) → Prop := fun r => ∀ c : Dev nD,
  r.2.mem ((c : Thread nD τ).loc main_v10) = outF m ap c
    ∧ r.2.mem ((c : Thread nD τ).loc main_arg0) = m ((c : Thread nD τ).loc main_arg0)
    ∧ r.2.mem ((c : Thread nD τ).loc main_arg1) = m ((c : Thread nD τ).loc main_arg1)

-- the library theorem's implicit arguments are found by unifying its conclusion with this one, which takes unfolding plain
-- definitions in a metavariable's type
set_option backward.isDefEq.respectTransparency.types false in
/-- At the compiled mesh, for any float values, from any memory with zero counters, at tables the host operations produce and
    the pipeline admits: every weakly fair execution of @main on the TensorCores terminates, and every final state has the
    result at `outF` and both argument arrays unchanged. -/
theorem run_main (hbody : ∀ c, BodyObligation (dat (F := F) m ap c) (defs₀ (F := F)) Variants.none () Set.univ)
    (hpf : ∀ c, V m c main_v2 = ap.1 0 ∧ V m c main_v4 = ap.1 1 ∧ V m c main_v6 = ap.1 2) :
    θ_run defs (onTc (τ := τ) (main (F := F))) (s₀ m ρ) (QC m ap) :=
  Pipeline.θ_run_regions_kit (pcfgs (F := F)) (adm ap) (dats m ap) () (cellOf_inj (adm ap)) EP defs₀ 𝒱₀ L lv m ρ main (segs m ap hbody hpf)
    (fun c Q => by rw [main_segs (adm ap) (dats m ap) () 𝒱₀ L lv (seg0 m) (seg1 m ap) (reg0 m ap hbody hpf) rfl rfl c])
    (by simp only [Pipeline.Seg.pipes_host, Pipeline.Seg.pipes_region, Pipeline.Seg.pipes_nil]; decide) (O₀ := 0) (hL := fun _ _ => rfl) (G := fun _ => iprop(emp)) (u₀ := u₀ ap)
    (hu₀ := by
      have h : (ownU (u₀ ap) : sProp 𝕄) ⊢ BI.own ((EP (F := F)) (u₀ ap)) := .rfl
      unfold u₀ at h
      unfold u₀
      iintro Hu
      ihave Hu' := h $$ Hu
      imodintro
      isplitl [Hu']; · iexact Hu'
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V₀ m c) ∗ R c))
    (Tₙ := fun c => iprop(StableHlo.held (c : Thread nD τ) (tailRefs3).toFinset (StableHlo.after hostOps1 (V1 m ap c)) ∗ Keep m c))
    (hch := ⟨fun _ => .rfl, fun _ => .rfl, fun _ => .rfl, fun c => by
        show (iprop(StableHlo.held (c : Thread nD τ) (tailRefs3).toFinset (StableHlo.after hostOps1 (V1 m ap c)) ∗ (Keep m c ∗ R c)) : sProp 𝕄) ⊢ _
        iintro ⟨Hh, HK, HR⟩
        isplitl [Hh HK]
        · isplitl [Hh] <;> iassumption
        iexact HR⟩)
    (hinit := by
      refine Pipeline.initEach L lv fun c => ?_
      rw [show unscopedBufs c (fun b => m ((c : Thread nD τ).loc b)) = StableHlo.held (c : Thread nD τ) (Pipeline.ucRefs τ sig) (V₀ m c) from Pipeline.unscopedBufs_held c (V₀ m c)]
      iintro ⟨⟨Hh, -, HO, -, -, -⟩, -⟩
      imodintro
      isplitl [Hh]; · iexact Hh
      iexists ∅; iexact HO)
    (QY := fun c s => s.mem ((c : Thread nD τ).loc main_v10) = outF m ap c
      ∧ s.mem ((c : Thread nD τ).loc main_arg0) = m ((c : Thread nD τ).loc main_arg0)
      ∧ s.mem ((c : Thread nD τ).loc main_arg1) = m ((c : Thread nD τ).loc main_arg1))
    (hfin := fun c s' => by
      rw [held3]; unfold Keep; rw [V_arg0, V_arg1]
      iintro ⟨⟨⟨-, -, H10⟩, Ha0, Ha1⟩, HSI⟩
      icombine HSI H10 gives %h10
      icombine HSI Ha0 gives %h0
      icombine HSI Ha1 gives %h1
      imodintro
      isplitr
      · ipureintro
        exact ⟨Buf.eq_of_forall_mem_univ h10, Buf.eq_of_forall_mem_univ h0, Buf.eq_of_forall_mem_univ h1⟩
      iexact HSI)
    (hQ := fun _ h => h)

/-- info: 'Cert.Kernel.Hand.run_main' depends on axioms: [propext, Classical.choice, Quot.sound] -/
#guard_msgs in #print axioms run_main

end Cert.Kernel.Hand

end
-- ==== Proof.BOk.lean ====
/-
  The tables the region meets are admissible.

  Each input window's index map reads one word of its own table — the word at the grid point's position — and names
  the block (that word, 0, 0) of the 50257 × 1 × 256 table array. The block is inside the array when the word, read
  unsigned, is below 50257; on the two other axes the block index is 0 and the block is the whole axis. The element
  type is 32 bits wide, so the transfer ends are word-exact.

  The three tables, as the host operations leave them, are the three planes of the index input, flattened: table w
  at position t holds the input word at (w, t / 128, t % 128). So when every index word names a row of the table,
  every table word is below 50257, and the tables are admissible.

  The first statement holds for any contents of the tables whose every word is below 50257; the second shows that the
  program's tables meet that bound.
-/
import proofs.«124249_j35588099015425_2_alg».proof.Proof.BBase
import proofs.«124249_j35588099015425_2_alg».proof.Proof.HostLayout
import proofs.«124249_j35588099015425_2_alg».proof.Proof.Spec

noncomputable section

namespace Cert.Kernel.Hand

open Cert.Kernel Cert.Kernel.Gen
open Idealize.ShloMosaic Idealize.ShloMosaic.TcCoe Idealize.ShloMosaic.ValueIdx
open Idealize.SL Idealize.SL.Sem

variable {F : FTy → Type} [FloatOps F]

/-! ## Admissible from a bound on the tables' words -/

/-- Any contents of the three tables whose every word is below 50257 are admissible: each window's block, at every grid
    point, is inside the table array, and its transfer ends are word-exact (32-bit elements). -/
theorem ok0_of_bound (pf : pre0.Contents (Elt F))
    (hb0 : ∀ t : Fin 65536, (pf 0 (ix1 t) : BitVec 32).toNat < 50257)
    (hb1 : ∀ t : Fin 65536, (pf 1 (ix1 t) : BitVec 32).toNat < 50257)
    (hb2 : ∀ t : Fin 65536, (pf 2 (ix1 t) : BitVec 32).toNat < 50257) : ok0 pf := by
  have key0 : ∀ j : S65536.Idx, ((pf 0 j : BitVec 32).toNat + 1) * 1 ≤ 50257 := fun j => by
    have e : (pf 0 j : BitVec 32) = pf 0 (ix1 (j 0)) := congrArg (pf 0) (eq_ix1 j)
    have := hb0 (j 0)
    rw [e]; omega
  have key1 : ∀ j : S65536.Idx, ((pf 1 j : BitVec 32).toNat + 1) * 1 ≤ 50257 := fun j => by
    have e : (pf 1 j : BitVec 32) = pf 1 (ix1 (j 0)) := congrArg (pf 1) (eq_ix1 j)
    have := hb1 (j 0)
    rw [e]; omega
  have key2 : ∀ j : S65536.Idx, ((pf 2 j : BitVec 32).toNat + 1) * 1 ≤ 50257 := fun j => by
    have e : (pf 2 j : BitVec 32) = pf 2 (ix1 (j 0)) := congrArg (pf 2) (eq_ix1 j)
    have := hb2 (j 0)
    rw [e]; omega
  unfold ok0
  refine ⟨fun i => ⟨fun a => ?_, Or.inl rfl⟩, fun i => ⟨fun a => ?_, Or.inl rfl⟩, fun i => ⟨fun a => ?_, Or.inl rfl⟩⟩
  · match a with
    | ⟨0, _⟩ => exact key0 _
    | ⟨1, _⟩ => show (0 + 1) * 1 ≤ 1; omega
    | ⟨2, _⟩ => show (0 + 1) * 256 ≤ 256; omega
  · match a with
    | ⟨0, _⟩ => exact key1 _
    | ⟨1, _⟩ => show (0 + 1) * 1 ≤ 1; omega
    | ⟨2, _⟩ => show (0 + 1) * 256 ≤ 256; omega
  · match a with
    | ⟨0, _⟩ => exact key2 _
    | ⟨1, _⟩ => show (0 + 1) * 1 ≤ 1; omega
    | ⟨2, _⟩ => show (0 + 1) * 256 ≤ 256; omega

/-! ## The program's tables -/

variable (m : (ℓ : Loc nD τ sig) → Buf (Elt F) ℓ)

/-- The three tables as the host operations leave them (the machine has one device). -/
def tbl : pre0.Contents (Elt F) := fun k => V m (0 : Dev nD) (pre0.ref k)

/-- Table 0 is plane 0 of the index input, flattened. -/
theorem tbl_0 : tbl m 0 = shapeCast S65536 (extractStridedSlice S1x65536 ![0, 0]
    (shapeCast S3x65536 (m (((0 : Dev nD).tc : Thread nD τ).loc main_arg0) : IVec S3x512x128 32) shapeCasts_S3x512x128_S3x65536) slices_S3x65536_S1x65536_0_0) shapeCasts_S1x65536_S65536 := by
  show StableHlo.after hostOps0 (V₀ m 0) (Proc.devRef .tc main_v2) = _
  after_results
  rfl

/-- Table 1 is plane 1 of the index input, flattened. -/
theorem tbl_1 : tbl m 1 = shapeCast S65536 (extractStridedSlice S1x65536 ![1, 0]
    (shapeCast S3x65536 (m (((0 : Dev nD).tc : Thread nD τ).loc main_arg0) : IVec S3x512x128 32) shapeCasts_S3x512x128_S3x65536) slices_S3x65536_S1x65536_1_0) shapeCasts_S1x65536_S65536 := by
  show StableHlo.after hostOps0 (V₀ m 0) (Proc.devRef .tc main_v4) = _
  after_results
  rfl

/-- Table 2 is plane 2 of the index input, flattened. -/
theorem tbl_2 : tbl m 2 = shapeCast S65536 (extractStridedSlice S1x65536 ![2, 0]
    (shapeCast S3x65536 (m (((0 : Dev nD).tc : Thread nD τ).loc main_arg0) : IVec S3x512x128 32) shapeCasts_S3x512x128_S3x65536) slices_S3x65536_S1x65536_2_0) shapeCasts_S1x65536_S65536 := by
  show StableHlo.after hostOps0 (V₀ m 0) (Proc.devRef .tc main_v6) = _
  after_results
  rfl

/-- Table 0 at position t holds the input word at (0, t / 128, t % 128). -/
theorem tbl_0_apply (t : Fin 65536) : (tbl m 0 (ix1 t) : BitVec 32)
    = (m (((0 : Dev nD).tc : Thread nD τ).loc main_arg0) : IVec S3x512x128 32) (ix3 (0 : Fin 3) (⟨t.val / 128, by omega⟩ : Fin 512) (⟨t.val % 128, by omega⟩ : Fin 128)) :=
  (congrFun (tbl_0 m) (ix1 t)).trans (Cert.HostLayout.plane0_apply _ _ _ _ t)

/-- Table 1 at position t holds the input word at (1, t / 128, t % 128). -/
theorem tbl_1_apply (t : Fin 65536) : (tbl m 1 (ix1 t) : BitVec 32)
    = (m (((0 : Dev nD).tc : Thread nD τ).loc main_arg0) : IVec S3x512x128 32) (ix3 (1 : Fin 3) (⟨t.val / 128, by omega⟩ : Fin 512) (⟨t.val % 128, by omega⟩ : Fin 128)) :=
  (congrFun (tbl_1 m) (ix1 t)).trans (Cert.HostLayout.plane1_apply _ _ _ _ t)

/-- Table 2 at position t holds the input word at (2, t / 128, t % 128). -/
theorem tbl_2_apply (t : Fin 65536) : (tbl m 2 (ix1 t) : BitVec 32)
    = (m (((0 : Dev nD).tc : Thread nD τ).loc main_arg0) : IVec S3x512x128 32) (ix3 (2 : Fin 3) (⟨t.val / 128, by omega⟩ : Fin 512) (⟨t.val % 128, by omega⟩ : Fin 128)) :=
  (congrFun (tbl_2 m) (ix1 t)).trans (Cert.HostLayout.plane2_apply _ _ _ _ t)

/-- Table 0 at the flat position of (s, b) holds the input word at (0, s, b). -/
theorem tbl_0_apply_sb (s : Fin 512) (b : Fin 128) : (tbl m 0 (ix1 (⟨s.val * 128 + b.val, by omega⟩ : Fin 65536)) : BitVec 32)
    = (m (((0 : Dev nD).tc : Thread nD τ).loc main_arg0) : IVec S3x512x128 32) (ix3 (0 : Fin 3) s b) :=
  (congrFun (tbl_0 m) (ix1 _)).trans (Cert.HostLayout.plane0_apply_sb _ _ _ _ s b)

/-- Table 1 at the flat position of (s, b) holds the input word at (1, s, b). -/
theorem tbl_1_apply_sb (s : Fin 512) (b : Fin 128) : (tbl m 1 (ix1 (⟨s.val * 128 + b.val, by omega⟩ : Fin 65536)) : BitVec 32)
    = (m (((0 : Dev nD).tc : Thread nD τ).loc main_arg0) : IVec S3x512x128 32) (ix3 (1 : Fin 3) s b) :=
  (congrFun (tbl_1 m) (ix1 _)).trans (Cert.HostLayout.plane1_apply_sb _ _ _ _ s b)

/-- Table 2 at the flat position of (s, b) holds the input word at (2, s, b). -/
theorem tbl_2_apply_sb (s : Fin 512) (b : Fin 128) : (tbl m 2 (ix1 (⟨s.val * 128 + b.val, by omega⟩ : Fin 65536)) : BitVec 32)
    = (m (((0 : Dev nD).tc : Thread nD τ).loc main_arg0) : IVec S3x512x128 32) (ix3 (2 : Fin 3) s b) :=
  (congrFun (tbl_2 m) (ix1 _)).trans (Cert.HostLayout.plane2_apply_sb _ _ _ _ s b)

/-- When every index word names a row of the table, the program's tables are admissible. -/
theorem ok_tbl (hin : Cert.NGram.InRange (m (((0 : Dev nD).tc : Thread nD τ).loc main_arg0))) : ok0 (F := F) (tbl m) :=
  ok0_of_bound (tbl m)
    (fun t => (tbl_0_apply m t).symm ▸ hin _)
    (fun t => (tbl_1_apply m t).symm ▸ hin _)
    (fun t => (tbl_2_apply m t).symm ▸ hin _)

end Cert.Kernel.Hand

end
-- ==== Proof.LibTRef.lean ====
/-
  A typed reference's two transports cancel.

  A typed reference to a host buffer carries the equation between the buffer's recorded type and the value's type; an
  operation stated over typed references carries contents of the value's type into the buffer's type on the way in and back
  on the way out. Carrying a value in and straight back out is the identity, whatever the equation's proof.
-/
import Idealize.ShloMosaic.Lib.StableHlo

namespace Cert.LibTRef

open Idealize.ShloMosaic Idealize.ShloMosaic.StableHlo

/-- Contents carried into a typed reference's buffer type and back out are the contents. -/
theorem ofBuf_toBuf {sig : RefSig} {T : BufTy} {Val : EltTy → Type} (x : TRef sig T) (v : T.Contents Val) :
    x.ofBuf (x.toBuf v) = v := by
  obtain ⟨r, rfl, _, _⟩ := x
  rfl

end Cert.LibTRef
-- ==== Proof.RefRun.lean ====
/-
  The reference's run.

  The reference program is a straight line of twenty-five host operations: the twenty-two of the outlined index
  lookup (with the three-way select of the function it calls in turn inlined at the call), the selection against the
  out-of-range mask, the zero constant and the sum over the leading axis. Listed in order, the program is their
  sequence; every weakly fair execution then terminates with each buffer at the fold of the operations' results
  over the launch contents, and the result buffer holds the operations' composed pure term of the two arguments.
-/
import proofs.«124249_j35588099015425_2_alg».proof.Proof.Gen.ReferenceIdeal
import proofs.«124249_j35588099015425_2_alg».proof.Proof.LibTRef
import Idealize.ShloMosaic.Lib.StableHlo.Run
import Idealize.ShloMosaic.PureOps.Ideal

noncomputable section

namespace Cert.RefSide

open Cert.ReferenceIdeal Cert.ReferenceIdeal.Gen Idealize.ShloMosaic Idealize.ShloMosaic.TcCoe Idealize.SL.Sem Idealize.ShloMosaic.StableHlo

/-! ## The composed pure term, in named stages -/

/-- The index words with the negative ones wrapped: a word below zero (signed) has the row count added. -/
def wrapped (inp : IVec S3x512x128 32) : IVec S3x512x128 32 :=
  select (cmpi .slt inp (broadcastInDim S3x512x128 ![] bcast_S_S3x512x128 (constantI S_ 32 0#32)))
    (addi inp (broadcastInDim S3x512x128 ![] bcast_S_S3x512x128 (constantI S_ 32 50257#32))) inp

/-- The wrapped words with a trailing unit axis: the gather's index array. -/
def wrapped4 (inp : IVec S3x512x128 32) : IVec S3x512x128x1 32 :=
  broadcastInDim S3x512x128x1 ![0, 1, 2] bcast_S3x512x128_S3x512x128x1_0_1_2 (wrapped inp)

/-- The in-range mask: one where the wrapped word lies between zero and the last row (signed), the conjunction
    folded over the trailing unit axis from the constant one. -/
def inMask (inp : IVec S3x512x128 32) : IVec S3x512x128 1 :=
  Host.reduce IntOp.andi
    (andi
      (cmpi .sge (wrapped4 inp) (broadcastInDim S3x512x128x1 ![] bcast_S_S3x512x128x1 (constantI S_ 32 0#32)))
      (cmpi .sle (wrapped4 inp)
        (broadcastInDim S3x512x128x1 ![0, 1, 2, 3] bcast_S1x1x1x1_S3x512x128x1_0_1_2_3
          (broadcastInDim S1x1x1x1 ![3] bcast_S1_S1x1x1x1_3 (constantI S1 32 50256#32)))))
    (constantI S_ 1 1#1) reducesTo_S3x512x128x1_S3x512x128_d3 h_S_

/-- The gathered rows: the table's rows at the wrapped words where the mask is one, the not-a-number word's value
    elsewhere. -/
def taken (inp : IVec S3x512x128 32) (w : FVec Ideal S50257x256 .f32) : FVec Ideal S3x512x128x256 .f32 :=
  select (broadcastInDim S3x512x128x256 ![0, 1, 2] bcast_S3x512x128_S3x512x128x256_0_1_2 (inMask inp))
    (Host.gather gather_S50257x256_S3x512x128x1_S3x512x128x256_3_0_n_n_0_3_1256 w (wrapped4 inp))
    (broadcastInDim S3x512x128x256 ![] bcast_S_S3x512x128x256 (constant (F := Ideal) S_ .f32 0x7FC00000#32))

/-- The reference's result as a function of its two arguments: the gathered rows summed over the leading axis from
    the zero word. -/
def refOut (inp : IVec S3x512x128 32) (w : FVec Ideal S50257x256 .f32) : FVec Ideal S512x128x256 .f32 :=
  Host.reduceAdd (F := Ideal) (taken inp w) (constant (F := Ideal) S_ .f32 0x00000000#32)
    reducesTo_S3x512x128x256_S512x128x256_d0 h_S_

/-! ## The program as a list of operations -/

variable {F : FTy → Type} [FloatOps F]

/-- @main's twenty-five operations, in order, the two calls unfolded at their sites. -/
abbrev ops : List (HloOp τ sig (Elt F)) :=
  [ TRef.nullary main_call0.c (constantI S_ 32 0#32),
    TRef.unary main_call0.c main_call0.v0 (broadcastInDim S3x512x128 ![] bcast_S_S3x512x128),
    TRef.binary (.of main_arg0) main_call0.v0 main_call0.v1 (cmpi .slt),
    TRef.nullary main_call0.c_0 (constantI S_ 32 50257#32),
    TRef.unary main_call0.c_0 main_call0.v2 (broadcastInDim S3x512x128 ![] bcast_S_S3x512x128),
    TRef.binary (.of main_arg0) main_call0.v2 main_call0.v3 addi,
    TRef.ternary main_call0.v1 main_call0.v3 (.of main_arg0) main_call0.call0.v0 select,
    TRef.unary main_call0.call0.v0 main_call0.v5 (broadcastInDim S3x512x128x1 ![0, 1, 2] bcast_S3x512x128_S3x512x128x1_0_1_2),
    TRef.nullary main_call0.c_1 (constantI S1 32 50256#32),
    TRef.nullary main_call0.c_2 (constantI S_ 32 0#32),
    TRef.unary main_call0.c_2 main_call0.v6 (broadcastInDim S3x512x128x1 ![] bcast_S_S3x512x128x1),
    TRef.binary main_call0.v5 main_call0.v6 main_call0.v7 (cmpi .sge),
    TRef.unary main_call0.c_1 main_call0.v8 (broadcastInDim S1x1x1x1 ![3] bcast_S1_S1x1x1x1_3),
    TRef.unary main_call0.v8 main_call0.v9 (broadcastInDim S3x512x128x1 ![0, 1, 2, 3] bcast_S1x1x1x1_S3x512x128x1_0_1_2_3),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S3x512x128x1_S3x512x128_d3 h_S_),
    TRef.binary (.of main_arg1) main_call0.v5 main_call0.v13 (fun x i => Host.gather gather_S50257x256_S3x512x128x1_S3x512x128x256_3_0_n_n_0_3_1256 x i),
    TRef.unary main_call0.v12 main_call0.v14 (broadcastInDim S3x512x128x256 ![0, 1, 2] bcast_S3x512x128_S3x512x128x256_0_1_2),
    TRef.nullary main_call0.cst (constant S_ .f32 0x7FC00000#32),
    TRef.unary main_call0.cst main_call0.v15 (broadcastInDim S3x512x128x256 ![] bcast_S_S3x512x128x256),
    TRef.ternary main_call0.v14 main_call0.v13 main_call0.v15 main_call0.v16 select,
    nullary main_cst (constant S_ .f32 0x00000000#32),
    binary main_v0 main_cst main_v1 ((fun x v => Host.reduceAdd x v reducesTo_S3x512x128x256_S512x128x256_d0 h_S_) : (⟨S3x512x128x256, .f32⟩ : BufTy).Contents (Elt F) → (⟨S_, .f32⟩ : BufTy).Contents (Elt F) → (⟨S512x128x256, .f32⟩ : BufTy).Contents (Elt F)) ]

set_option maxRecDepth 1024 in
/-- @main is that straight line: the two functions' definitions unfolded at their calls, both sides one chain of
    steps once the sequencing is reassociated. -/
theorem main_eq (c : Dev nD) : main (F := F) c = seq ops := by
  simp only [main, fn_take.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub .., nullary_bufs_sub ..,
    binary_bufs_sub ..⟩

/-- At the compiled mesh, for any float values, from any memory with zero counters: every weakly fair execution of
    @main terminates, and every final state has each buffer at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

attribute [local irreducible] Host.reduce Host.gather Host.reduceAdd in
/-- The fold at the result buffer is the composed term of the two arguments' launch contents: each operation's
    result rewritten at its buffer, the typed references' two transports cancelled, the stages unfolded, the two
    sides are one term. The reductions and the gather stay folded meanwhile: the equation never looks inside. -/
theorem out_eq (V : Valuation τ sig (Elt Ideal)) :
    after (ops (F := Ideal)) V (main_v1 : DevRef τ sig) = refOut (V (main_arg0 : DevRef τ sig)) (V (main_arg1 : DevRef τ sig)) := by
  after_results_simp
  simp only [Cert.LibTRef.ofBuf_toBuf]
  unfold refOut taken inMask wrapped4 wrapped
  rfl

theorem arg0_eq (V : Valuation τ sig (Elt F)) :
    after ops V (main_arg0 : DevRef τ sig) = V (main_arg0 : DevRef τ sig) := by
  after_results_simp

theorem arg1_eq (V : Valuation τ sig (Elt F)) :
    after ops V (main_arg1 : DevRef τ sig) = V (main_arg1 : DevRef τ sig) := by
  after_results_simp

/-- On every device, from any memory with zero counters: every weakly fair execution of @main terminates with the
    result buffer at the composed term of the arguments and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩
      (fun r => ∀ c : Dev nD,
        r.2.mem ((c.tc : Thread nD τ).loc main_v1)
            = refOut (m ((c.tc : Thread nD τ).loc main_arg0)) (m ((c.tc : Thread nD τ).loc main_arg1))
          ∧ r.2.mem ((c.tc : Thread nD τ).loc main_arg0) = m ((c.tc : Thread nD τ).loc main_arg0)
          ∧ r.2.mem ((c.tc : Thread nD τ).loc main_arg1) = m ((c.tc : Thread nD τ).loc main_arg1)) :=
  (θ_run defs _ _).mono (fun _ h c => ⟨(h c main_v1).trans (out_eq _), (h c main_arg0).trans (arg0_eq _),
      (h c main_arg1).trans (arg1_eq _)⟩)
    (run_main m ρ)

end Cert.RefSide

end
-- ==== Proof.RefWords.lean ====
/-
  Index words that name a table row.

  A 32-bit word whose unsigned value is below the row count 50257 has its sign bit clear, so it reads the same signed
  and unsigned. Hence: it is not below zero, it is at least zero, it is at most the last row 50256, and clamping its
  signed value into the rows leaves its unsigned value.
-/
import Idealize.ShloMosaic.Lib.Affine
import Idealize.ShloMosaic.Lib.ValueIdx

namespace Cert.RefSide

open Idealize.ShloMosaic

/-- A word below the row count reads the same signed and unsigned. -/
theorem toInt_of_lt {x : BitVec 32} (h : x.toNat < 50257) : x.toInt = (x.toNat : Int) :=
  BitVec.toInt_eq_toNat_of_lt (by omega)

/-- Such a word is not below zero (signed). -/
theorem cmpi_slt_zero {x : BitVec 32} (h : x.toNat < 50257) : IntOp.cmpi .slt x 0#32 = 0#1 := by
  apply ValueIdx.eq_zero_of_ne_one
  rw [IntOp.cmpi_slt, toInt_of_lt h, show (0#32 : BitVec 32).toInt = 0 from by decide]
  omega

/-- Such a word is at least zero (signed). -/
theorem cmpi_sge_zero {x : BitVec 32} (h : x.toNat < 50257) : IntOp.cmpi .sge x 0#32 = 1#1 := by
  rw [IntOp.cmpi_sge, toInt_of_lt h, show (0#32 : BitVec 32).toInt = 0 from by decide]
  omega

/-- Such a word is at most the last row (signed). -/
theorem cmpi_sle_last {x : BitVec 32} (h : x.toNat < 50257) : IntOp.cmpi .sle x 50256#32 = 1#1 := by
  rw [IntOp.cmpi_sle, toInt_of_lt h, show (50256#32 : BitVec 32).toInt = 50256 from by decide]
  omega

/-- Clamping such a word's signed value into the rows leaves its unsigned value. -/
theorem clamp_of_lt {x : BitVec 32} (h : x.toNat < 50257) : min x.toInt.toNat (50257 - 1) = x.toNat := by
  rw [toInt_of_lt h, Int.toNat_natCast]
  omega

end Cert.RefSide
-- ==== Proof.RefGather.lean ====
/-
  The reference's gather read at an index.

  The gather takes rows of a 50257 × 256 table at a 3 × 512 × 128 × 1 array of start indices: the index vector is the
  trailing unit axis, it names the table's row axis, the row axis is collapsed and the column axis is the one offset
  axis of the result. So the result at (k, s, b, d) is the table at row "the start index at (k, s, b, 0), read signed
  and clamped into the rows" and column d.
-/
import proofs.«124249_j35588099015425_2_alg».proof.Proof.Gen.ReferenceIdeal
import Idealize.ShloMosaic.Lib.ValueIdx

namespace Cert.RefSide

open Cert.ReferenceIdeal Cert.ReferenceIdeal.Gen Idealize.ShloMosaic Idealize.ShloMosaic.ValueIdx

/-- The gather's dimension numbers, under a short name. -/
abbrev gd : GatherDims S50257x256 S3x512x128x1 S3x512x128x256 :=
  gather_S50257x256_S3x512x128x1_S3x512x128x256_3_0_n_n_0_3_1256

/-- The gather at (k, s, b, d): the table at the clamped start index of (k, s, b, 0), column d. -/
theorem gather_apply {α : Type} (x : S50257x256.Idx → α) (idx : IVec S3x512x128x1 32)
    (k : Fin 3) (s : Fin 512) (b : Fin 128) (d : Fin 256) :
    Host.gather gd x idx (ix4 k s b d)
      = x (ix2 ⟨min (idx (ix4 k s b 0)).toInt.toNat (50257 - 1), by omega⟩ d) := by
  unfold Host.gather
  refine congrArg x (funext fun a => Fin.ext ?_)
  match a with
  | ⟨0, _⟩ =>
    show gd.start (ix4 k s b d) idx 0 + gd.batchCoord (ix4 k s b d) 0 + gd.offCoord (ix4 k s b d) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gd.startIndexMap from List.mem_singleton.mpr rfl)]
    have hsi : gd.siIdx (ix4 k s b d) ⟨List.idxOf (0 : Fin 2) gd.startIndexMap,
        List.idxOf_lt_length_iff.2 (List.mem_singleton.mpr rfl)⟩ = ix4 k s b 0 := by
      funext c; refine Fin.ext ?_
      match c with
      | ⟨0, _⟩ => rfl
      | ⟨1, _⟩ => rfl
      | ⟨2, _⟩ => rfl
      | ⟨3, _⟩ => rfl
    rw [hsi]
    rfl
  | ⟨1, _⟩ =>
    show gd.start (ix4 k s b d) idx 1 + gd.batchCoord (ix4 k s b d) 1 + gd.offCoord (ix4 k s b d) 1 = d.val
    rw [GatherDims.batchCoord_eq_zero _ _ _ List.not_mem_nil]
    unfold GatherDims.start
    rw [dif_neg (show (1 : Fin 2) ∉ gd.startIndexMap from by decide)]
    unfold GatherDims.offCoord
    rw [dif_pos (show (1 : Fin 2) ∈ gd.sKept from by decide)]
    simp only [Nat.zero_add]
    rfl

end Cert.RefSide
-- ==== Proof.RefValue.lean ====
/-
  The reference's value.

  When every index word names a row of the table, the reference's result is the specification: at (s, b, d) the sum,
  from zero, of the table's entries in column d of the three rows the words at (0, s, b), (1, s, b), (2, s, b) name.

  Read at an index, stage by stage: an in-range word is not negative, so the wrap keeps it; it lies between zero and
  the last row, so the in-range mask is one; the gather clamps it to itself, so it reads that row; the mask being one,
  the final select keeps the gathered entry and the not-a-number word is never read. The sum over the leading axis from
  the zero word is then zero plus the three entries added left to right.
-/
import proofs.«124249_j35588099015425_2_alg».proof.Proof.RefRun
import proofs.«124249_j35588099015425_2_alg».proof.Proof.RefWords
import proofs.«124249_j35588099015425_2_alg».proof.Proof.RefGather
import proofs.«124249_j35588099015425_2_alg».proof.Proof.Spec
import Idealize.ShloMosaic.Lib.IdealHost
import Idealize.ShloMosaic.Lib.Pipeline.Value
import Idealize.ShloMosaic.PureOps.Reduce

noncomputable section

namespace Cert.RefSide

open Cert.ReferenceIdeal Cert.ReferenceIdeal.Gen Idealize.ShloMosaic Idealize.ShloMosaic.ValueIdx

/-! ## The index stages at an in-range word -/

/-- The wrap keeps a word that names a row. -/
theorem wrapped_apply (inp : IVec S3x512x128 32) (i : S3x512x128.Idx) (h : (inp i).toNat < 50257) :
    wrapped inp i = inp i := by
  show Scalar.select (IntOp.cmpi .slt (inp i) 0#32) (IntOp.addi (inp i) 50257#32) (inp i) = inp i
  rw [cmpi_slt_zero h, select_zero]

/-- The index array at (k, s, b, 0) is the wrapped word at (k, s, b). -/
theorem wrapped4_apply (inp : IVec S3x512x128 32) (k : Fin 3) (s : Fin 512) (b : Fin 128) :
    wrapped4 inp (ix4 k s b 0) = wrapped inp (ix3 k s b) :=
  broadcastInDim_apply _ _ _ (ix4 k s b (0 : Fin 1)) (ix3 k s b)
    (fun a => match a with | ⟨0, _⟩ => rfl | ⟨1, _⟩ => rfl | ⟨2, _⟩ => rfl)

/-- So at an in-range word the index array holds the word. -/
theorem wrapped4_eq (inp : IVec S3x512x128 32) (k : Fin 3) (s : Fin 512) (b : Fin 128)
    (h : (inp (ix3 k s b)).toNat < 50257) : wrapped4 inp (ix4 k s b 0) = inp (ix3 k s b) :=
  (wrapped4_apply inp k s b).trans (wrapped_apply inp _ h)

/-- A fold over the one-element index type is one application of the operation. -/
theorem fold_fin_one {β : Type} (op : β → β → β) [Std.Commutative op] [Std.Associative op] (v : β) (f : Fin 1 → β) :
    (Finset.univ : Finset (Fin 1)).fold op v f = op (f 0) v := by
  rw [Finset.univ_unique, Finset.fold_singleton]
  rfl

/-- The shape fact that names the index inserted on the trailing unit axis. -/
theorem reduces_unit : S3x512x128x1.Reduces [3] S3x512x128 := by decide

/-- The in-range mask at an in-range word is one. -/
theorem inMask_apply (inp : IVec S3x512x128 32) (k : Fin 3) (s : Fin 512) (b : Fin 128)
    (h : (inp (ix3 k s b)).toNat < 50257) : inMask inp (ix3 k s b) = 1#1 := by
  unfold inMask
  rw [Host.reduce_eq_fold_single IntOp.andi _ _ reducesTo_S3x512x128x1_S3x512x128_d3 reduces_unit h_S_ (ix3 k s b)]
  refine (fold_fin_one IntOp.andi _ _).trans ?_
  have hl : reduces_unit.lift (ix3 k s b) (0 : Fin 1) = ix4 k s b 0 := by
    funext a
    match a with
    | ⟨0, _⟩ => rfl
    | ⟨1, _⟩ => rfl
    | ⟨2, _⟩ => rfl
    | ⟨3, _⟩ => rfl
  show IntOp.andi (IntOp.andi (IntOp.cmpi .sge (wrapped4 inp (reduces_unit.lift (ix3 k s b) (0 : Fin 1))) 0#32)
      (IntOp.cmpi .sle (wrapped4 inp (reduces_unit.lift (ix3 k s b) (0 : Fin 1))) 50256#32)) 1#1 = 1#1
  rw [hl, wrapped4_eq inp k s b h, cmpi_sge_zero h, cmpi_sle_last h]
  decide

/-! ## The gathered rows -/

/-- At an in-range word the gathered entry is the table's at the row the word names. -/
theorem taken_apply (inp : IVec S3x512x128 32) (w : FVec Ideal S50257x256 .f32) (k : Fin 3) (s : Fin 512) (b : Fin 128)
    (d : Fin 256) (h : (inp (ix3 k s b)).toNat < 50257) :
    taken inp w (ix4 k s b d) = w (ix2 (Cert.NGram.row (inp (ix3 k s b))) d) := by
  unfold taken
  rw [select_apply,
    broadcastInDim_apply _ bcast_S3x512x128_S3x512x128x256_0_1_2 (inMask inp) (ix4 k s b d) (ix3 k s b)
      (fun a => match a with | ⟨0, _⟩ => rfl | ⟨1, _⟩ => rfl | ⟨2, _⟩ => rfl),
    inMask_apply inp k s b h, select_one, gather_apply]
  refine congrArg (fun r => w (ix2 r d)) (Fin.ext ?_)
  show min (wrapped4 inp (ix4 k s b 0)).toInt.toNat (50257 - 1) = (Cert.NGram.row (inp (ix3 k s b))).val
  rw [wrapped4_eq inp k s b h, clamp_of_lt h, Cert.NGram.row_val h]

/-! ## The sum over the leading axis -/

/-- The shape fact that names the index inserted on the leading axis. -/
theorem reduces_lead : S3x512x128x256.Reduces [0] S512x128x256 := by decide

/-- The result index (s, b, d) with k inserted on the leading axis is (k, s, b, d). -/
theorem lift_lead (k : Fin 3) (s : Fin 512) (b : Fin 128) (d : Fin 256) :
    reduces_lead.lift (ix3 s b d) k = ix4 k s b d := by
  funext a
  match a with
  | ⟨0, _⟩ => rfl
  | ⟨1, _⟩ => rfl
  | ⟨2, _⟩ => rfl
  | ⟨3, _⟩ => rfl

/-- Under the hypothesis that every index word names a row, the reference's result is the specification. -/
theorem refOut_eq_G (inp : IVec Cert.NGram.SIn 32) (w : FVec Ideal Cert.NGram.STab .f32) (h : Cert.NGram.InRange inp) :
    Cert.RefSide.refOut inp w = Cert.NGram.G inp w := by
  refine Cert.NGram.eq_G_of_apply inp w _ fun s b d => ?_
  unfold refOut
  rw [hostReduceAdd_apply,
    Ideal.hostReduceAdd_single reducesTo_S3x512x128x256_S512x128x256_d0 reduces_lead (taken inp w) _ (ix3 s b d)]
  refine (congrArg₂ (· + ·) (Ideal.ofBits_zero_f32) (Fin.sum_univ_three _)).trans ?_
  rw [zero_add, lift_lead, lift_lead, lift_lead, taken_apply inp w 0 s b d (h _), taken_apply inp w 1 s b d (h _),
    taken_apply inp w 2 s b d (h _)]
  rfl

end Cert.RefSide

end
-- ==== Proof.lean ====
/-
  The certificate's claims, assembled.

  Both programs compute an embedding-bag sum: for each of 512 × 128 positions, the sum of the three table rows that the
  position's three index words name. The kernel fetches the three rows through three windows on one array and adds them,
  (x₀ + x₁) + x₂; the reference gathers the rows for all three index planes and sums the planes, 0 + (x₀ + x₁ + x₂). On the
  extended reals addition is associative and commutative with 0 neutral, so the two agree entry by entry — with no
  finiteness needed — as soon as every index word names a row of the table, which the precondition states (0 ≤ word < 50257).
  That range is also what keeps every block the kernel fetches inside the table, so it is what the two kernel frames rest on.

  The three frames are the three runs with the results forgotten; the idealization rewrote nothing, so `preserves` is
  trivial; `algebraic` puts the two idealized runs side by side at the common specification (Proof/Spec.lean).
-/
import proofs.«124249_j35588099015425_2_alg».proof.Defs
import proofs.«124249_j35588099015425_2_alg».proof.Proof.Gen.Kernel
import proofs.«124249_j35588099015425_2_alg».proof.Proof.Gen.KernelIdeal
import proofs.«124249_j35588099015425_2_alg».proof.Proof.Gen.ReferenceIdeal
import proofs.«124249_j35588099015425_2_alg».proof.Proof.Gen.Pre_finite_inputs
import proofs.«124249_j35588099015425_2_alg».proof.Proof.PreRange
import proofs.«124249_j35588099015425_2_alg».proof.Proof.KBody
import proofs.«124249_j35588099015425_2_alg».proof.Proof.KRun
import proofs.«124249_j35588099015425_2_alg».proof.Proof.KOut
import proofs.«124249_j35588099015425_2_alg».proof.Proof.KOk
import proofs.«124249_j35588099015425_2_alg».proof.Proof.KValue
import proofs.«124249_j35588099015425_2_alg».proof.Proof.BBody
import proofs.«124249_j35588099015425_2_alg».proof.Proof.BRun
import proofs.«124249_j35588099015425_2_alg».proof.Proof.BOk
import proofs.«124249_j35588099015425_2_alg».proof.Proof.RefRun
import proofs.«124249_j35588099015425_2_alg».proof.Proof.RefValue

noncomputable section

namespace Cert.Proof

open Idealize.ShloMosaic Idealize.ShloMosaic.TcCoe Idealize.SL.Sem

/-- The word-level kernel runs and leaves its arguments unchanged: its run at the tables the host operations make, which
    the precondition's index range makes admissible. -/
theorem frame_kernel : Cert.frame_Kernel := fun m ρ hpre => by
  have hin : Cert.NGram.InRange (m (((0 : Dev Cert.Kernel.nD).tc : Thread Cert.Kernel.nD Cert.Kernel.τ).loc Cert.Kernel.main_arg0)) :=
    Cert.PreSide.inRange_of_pre _ _ (hpre 0)
  exact (θ_run (Cert.Kernel.defs (F := Bits)) _ _).mono (fun _ h c => (h c).2)
    (Cert.Kernel.Hand.run_main m ρ ⟨Cert.Kernel.Hand.tbl m, Cert.Kernel.Hand.ok_tbl m hin⟩
      (fun c => Cert.Kernel.Hand.body_obligation m _ c)
      (fun c => by obtain rfl : c = 0 := Subsingleton.elim _ _; exact ⟨rfl, rfl, rfl⟩))

/-- The same of the idealized kernel. -/
theorem frame_kernelIdeal : Cert.frame_KernelIdeal := fun m ρ hpre => by
  have hin : Cert.NGram.InRange (m (((0 : Dev Cert.KernelIdeal.nD).tc : Thread Cert.KernelIdeal.nD Cert.KernelIdeal.τ).loc Cert.KernelIdeal.main_arg0)) :=
    Cert.PreSide.inRange_of_pre _ _ (hpre 0)
  exact (θ_run (Cert.KernelIdeal.defs (F := Ideal)) _ _).mono (fun _ h c => (h c).2)
    (Cert.KernelIdeal.Hand.run_main m ρ ⟨Cert.KernelIdeal.Hand.tbl m, Cert.KernelIdeal.Hand.ok_tbl m hin⟩
      (fun c => Cert.KernelIdeal.Hand.body_obligation m _ c)
      (fun c => by obtain rfl : c = 0 := Subsingleton.elim _ _; exact ⟨rfl, rfl, rfl⟩))

/-- The reference runs and leaves its arguments unchanged: its run with the result forgotten. -/
theorem frame_reference : Cert.frame_ReferenceIdeal := fun m ρ _ =>
  (θ_run (Cert.ReferenceIdeal.defs (F := Ideal)) _ _).mono (fun _ h c => (h c).2) (Cert.RefSide.run m ρ)

/-- The idealization rewrote nothing. -/
theorem preserves : Cert.preserves_Kernel_KernelIdeal := trivial

/-- The idealized kernel's result, read through the two reshapes after the region, is the specification of its arguments. -/
theorem kernel_value (m : (ℓ : Loc Cert.KernelIdeal.nD Cert.KernelIdeal.τ Cert.KernelIdeal.sig) → Buf (Elt Ideal) ℓ)
    (ap : (Cert.KernelIdeal.pcfg0 (F := Ideal)).Adm)
    (hpf : ∀ c, Cert.KernelIdeal.Hand.V m c Cert.KernelIdeal.main_v2 = ap.1 0 ∧ Cert.KernelIdeal.Hand.V m c Cert.KernelIdeal.main_v4 = ap.1 1
      ∧ Cert.KernelIdeal.Hand.V m c Cert.KernelIdeal.main_v6 = ap.1 2) (c : Dev Cert.KernelIdeal.nD) :
    Cert.KernelIdeal.Hand.outF m ap c
      = Cert.NGram.G (m ((c.tc : Thread Cert.KernelIdeal.nD Cert.KernelIdeal.τ).loc Cert.KernelIdeal.main_arg0))
          (m ((c.tc : Thread Cert.KernelIdeal.nD Cert.KernelIdeal.τ).loc Cert.KernelIdeal.main_arg1)) := by
  refine Cert.NGram.eq_G_of_apply _ _ _ fun s b d => ?_
  rw [Cert.KernelIdeal.Hand.outF_eq]
  exact Cert.KernelIdeal.HandValue.final_value m ap c (hpf c).1 (hpf c).2.1 (hpf c).2.2 s b d

/-- The two idealized programs, from memories that agree on the arguments, end with equal results: each result is the
    specification of the arguments. -/
theorem algebraic : Cert.algebraic_KernelIdeal_ReferenceIdeal := by
  intro m ρ m' ρ' hpre hagree
  have hin : ∀ c : Dev Cert.KernelIdeal.nD,
      Cert.NGram.InRange (m ((c.tc : Thread Cert.KernelIdeal.nD Cert.KernelIdeal.τ).loc Cert.KernelIdeal.main_arg0)) :=
    fun c => Cert.PreSide.inRange_of_pre _ _ (hpre c)
  have hpf : ∀ c, Cert.KernelIdeal.Hand.V m c Cert.KernelIdeal.main_v2 = (Cert.KernelIdeal.Hand.tbl m) 0
      ∧ Cert.KernelIdeal.Hand.V m c Cert.KernelIdeal.main_v4 = (Cert.KernelIdeal.Hand.tbl m) 1
      ∧ Cert.KernelIdeal.Hand.V m c Cert.KernelIdeal.main_v6 = (Cert.KernelIdeal.Hand.tbl m) 2 :=
    fun c => by obtain rfl : c = 0 := Subsingleton.elim _ _; exact ⟨rfl, rfl, rfl⟩
  refine ⟨fun c => Cert.NGram.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), ?_, ?_⟩
  · exact (θ_run (Cert.KernelIdeal.defs (F := Ideal)) _ _).mono
      (fun _ h c => ⟨(h c).1.trans (kernel_value m ⟨Cert.KernelIdeal.Hand.tbl m, Cert.KernelIdeal.Hand.ok_tbl m (hin 0)⟩ hpf c), (h c).2⟩)
      (Cert.KernelIdeal.Hand.run_main m ρ ⟨Cert.KernelIdeal.Hand.tbl m, Cert.KernelIdeal.Hand.ok_tbl m (hin 0)⟩
        (fun c => Cert.KernelIdeal.Hand.body_obligation m _ c) hpf)
  · refine (θ_run (Cert.ReferenceIdeal.defs (F := Ideal)) _ _).mono (fun _ h c => ⟨(h c).1.trans ?_, (h c).2⟩) (Cert.RefSide.run m' ρ')
    rw [(hagree c).1, (hagree c).2]
    exact Cert.RefSide.refOut_eq_G _ _ (hin c)

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
